-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x100 : Shape := ⟨2, ![50000, 100]⟩
abbrev S2x600000 : Shape := ⟨2, ![2, 600000]⟩
abbrev S64x128 : Shape := ⟨2, ![64, 128]⟩
abbrev S128 : Shape := ⟨1, ![128]⟩
abbrev S100x128 : Shape := ⟨2, ![100, 128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x100 : S_.BroadcastsInDim S50000x100 (![] : Fin 0 → Fin S50000x100.rank)
  reducesTo_S50000x100_S_d0_1 : S50000x100.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S100x128 : S_.BroadcastsInDim S100x128 (![] : Fin 0 → Fin S100x128.rank)
  reducesTo_S100x128_S_d0_1 : S100x128.ReducesTo [0, 1] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x16 .f32) (main_arg14 : FVec F S16 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x16 .f32 := Host.absf main_arg13
  let main_cst_22 : FVec F S_ .f32 := constant S_ .f32 0x7F800000#32
  let main_v60 : FVec F S128x16 .f32 := broadcastInDim S128x16 ![] bcast_S_S128x16 main_cst_22
  let main_v61 : IVec S128x16 1 := cmpf .olt main_v59 main_v60
  let main_c_23 : IVec S_ 1 := constantI S_ 1 1#1
  let main_v62 : IVec S_ 1 := (fun x v => Host.reduce IntOp.andi x v reducesTo_S128x16_S_d0_1 h_S_) main_v61 main_c_23
  let main_v63 : IVec S_ 1 := andi main_v58 main_v62
  let main_v64 : FVec F S16 .f32 := Host.absf main_arg14
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x16 .f32) (main_arg14 : FVec F S16 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S100x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x16 .f32) (main_arg14 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S100x128 .f32 := Host.absf main_arg5
  let main_cst_6 : FVec F S_ .f32 := constant S_ .f32 0x7F800000#32
  let main_v20 : FVec F S100x128 .f32 := broadcastInDim S100x128 ![] bcast_S_S100x128 main_cst_6
  let main_v21 : IVec S100x128 1 := cmpf .olt main_v19 main_v20
  let main_c_7 : IVec S_ 1 := constantI S_ 1 1#1
  let main_v22 : IVec S_ 1 := (fun x v => Host.reduce IntOp.andi x v reducesTo_S100x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x64 .f32) (main_arg1 : FVec F S50000x100 .f32) (main_arg2 : IVec S2x600000 32) (main_arg3 : FVec F S64x128 .f32) (main_arg4 : FVec F S128 .f32) (main_arg5 : FVec F S100x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x16 .f32) (main_arg14 : FVec F S16 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x100 .f32 := Host.absf main_arg1
  let main_cst_0 : FVec F S_ .f32 := constant S_ .f32 0x7F800000#32
  let main_v5 : FVec F S50000x100 .f32 := broadcastInDim S50000x100 ![] bcast_S_S50000x100 main_cst_0
  let main_v6 : IVec S50000x100 1 := cmpf .olt main_v4 main_v5
  let main_c_1 : IVec S_ 1 := constantI S_ 1 1#1
  let main_v7 : IVec S_ 1 := (fun x v => Host.reduce IntOp.andi x v reducesTo_S50000x100_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x64 : Shape := ⟨2, ![50000, 64]⟩
abbrev S50000x100 : Shape := ⟨2, ![50000, 100]⟩
abbrev S2x600000 : Shape := ⟨2, ![2, 600000]⟩
abbrev S64x128 : Shape := ⟨2, ![64, 128]⟩
abbrev S128 : Shape := ⟨1, ![128]⟩
abbrev S100x128 : Shape := ⟨2, ![100, 128]⟩
abbrev S128x128 : Shape := ⟨2, ![128, 128]⟩
abbrev S128x16 : Shape := ⟨2, ![128, 16]⟩
abbrev S16 : Shape := ⟨1, ![16]⟩
abbrev S1x600000 : Shape := ⟨2, ![1, 600000]⟩
abbrev S600000 : Shape := ⟨1, ![600000]⟩
abbrev S1x128 : Shape := ⟨2, ![1, 128]⟩
abbrev S50000x128 : Shape := ⟨2, ![50000, 128]⟩
abbrev S10000x64 : Shape := ⟨2, ![10000, 64]⟩
abbrev S10000x128 : Shape := ⟨2, ![10000, 128]⟩
abbrev S10000x100 : Shape := ⟨2, ![10000, 100]⟩
abbrev S100000x128 : Shape := ⟨2, ![100000, 128]⟩
abbrev S_ : Shape := ⟨0, ![]⟩
abbrev S100000 : Shape := ⟨1, ![100000]⟩
abbrev S700000 : Shape := ⟨1, ![700000]⟩
abbrev S700000x1 : Shape := ⟨2, ![700000, 1]⟩
abbrev S700000x128 : Shape := ⟨2, ![700000, 128]⟩
abbrev S1x16 : Shape := ⟨2, ![1, 16]⟩
abbrev S100000x16 : Shape := ⟨2, ![100000, 16]⟩
abbrev S10000x16 : Shape := ⟨2, ![10000, 16]⟩

abbrev nBuf : Space → Nat
  | .hbm => 203
  | .vmem => 36
  | .smem => 0
  | _ => 0

abbrev hbmTy0_0 (i : Nat) : BufTy := match i % 128 with
  | 0 => ⟨S50000x64, .f32⟩
  | 1 => ⟨S50000x100, .f32⟩
  | 2 => ⟨S2x600000, .i32⟩
  | 3 => ⟨S64x128, .f32⟩
  | 4 => ⟨S128, .f32⟩
  | 5 => ⟨S100x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x16, .f32⟩
  | 14 => ⟨S16, .f32⟩
  | 15 => ⟨S1x600000, .i32⟩
  | 16 => ⟨S600000, .i32⟩
  | 17 => ⟨S1x600000, .i32⟩
  | 18 => ⟨S600000, .i32⟩
  | 19 => ⟨S1x128, .f32⟩
  | 20 => ⟨S50000x128, .f32⟩
  | 21 => ⟨S1x128, .f32⟩
  | 22 => ⟨S50000x128, .f32⟩
  | 23 => ⟨S100000x128, .f32⟩
  | 24 => ⟨S_, .f32⟩
  | 25 => ⟨S128, .f32⟩
  | 26 => ⟨S1x128, .f32⟩
  | 27 => ⟨S100000x128, .f32⟩
  | 28 => ⟨S100000, .i32⟩
  | 29 => ⟨S700000, .i32⟩
  | 30 => ⟨S700000, .i32⟩
  | 31 => ⟨S_, .f32⟩
  | 32 => ⟨S700000, .f32⟩
  | 33 => ⟨S_, .f32⟩
  | 34 => ⟨S100000, .f32⟩
  | 35 => ⟨S700000x1, .i32⟩
  | 36 => ⟨S100000, .f32⟩
  | 37 => ⟨S_, .f32⟩
  | 38 => ⟨S100000, .f32⟩
  | 39 => ⟨S100000, .i1⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S700000, .i32⟩
  | 47 => ⟨S700000, .i1⟩
  | 48 => ⟨S_, .i32⟩
  | 49 => ⟨S700000, .i32⟩
  | 50 => ⟨S700000, .i32⟩
  | 51 => ⟨S700000, .i32⟩
  | 52 => ⟨S700000x1, .i32⟩
  | 53 => ⟨S700000, .f32⟩
  | 54 => ⟨S_, .i32⟩
  | 55 => ⟨S700000, .i32⟩
  | 56 => ⟨S700000, .i1⟩
  | 57 => ⟨S_, .i32⟩
  | 58 => ⟨S700000, .i32⟩
  | 59 => ⟨S700000, .i32⟩
  | 60 => ⟨S700000, .i32⟩
  | 61 => ⟨S700000x1, .i32⟩
  | 62 => ⟨S700000, .f32⟩
  | 63 => ⟨S700000, .f32⟩
  | 64 => ⟨S_, .i32⟩
  | 65 => ⟨S700000, .i32⟩
  | 66 => ⟨S700000, .i1⟩
  | 67 => ⟨S_, .i32⟩
  | 68 => ⟨S700000, .i32⟩
  | 69 => ⟨S700000, .i32⟩
  | 70 => ⟨S700000, .i32⟩
  | 71 => ⟨S700000x1, .i32⟩
  | 72 => ⟨S700000x128, .f32⟩
  | 73 => ⟨S700000x1, .f32⟩
  | 74 => ⟨S700000x128, .f32⟩
  | 75 => ⟨S700000x128, .f32⟩
  | 76 => ⟨S_, .f32⟩
  | 77 => ⟨S100000x128, .f32⟩
  | 78 => ⟨S700000x1, .i32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S128, .f32⟩
  | 85 => ⟨S1x128, .f32⟩
  | 86 => ⟨S100000x128, .f32⟩
  | 87 => ⟨S100000, .i32⟩
  | 88 => ⟨S700000, .i32⟩
  | 89 => ⟨S700000, .i32⟩
  | 90 => ⟨S_, .f32⟩
  | 91 => ⟨S700000, .f32⟩
  | 92 => ⟨S_, .f32⟩
  | 93 => ⟨S100000, .f32⟩
  | 94 => ⟨S700000x1, .i32⟩
  | 95 => ⟨S100000, .f32⟩
  | 96 => ⟨S_, .f32⟩
  | 97 => ⟨S100000, .f32⟩
  | 98 => ⟨S100000, .i1⟩
  | 99 => ⟨S100000, .f32⟩
  | 100 => ⟨S_, .f32⟩
  | 101 => ⟨S_, .f32⟩
  | 102 => ⟨S100000, .f32⟩
  | 103 => ⟨S100000, .f32⟩
  | 104 => ⟨S_, .i32⟩
  | 105 => ⟨S700000, .i32⟩
  | 106 => ⟨S700000, .i1⟩
  | 107 => ⟨S_, .i32⟩
  | 108 => ⟨S700000, .i32⟩
  | 109 => ⟨S700000, .i32⟩
  | 110 => ⟨S700000, .i32⟩
  | 111 => ⟨S700000x1, .i32⟩
  | 112 => ⟨S700000, .f32⟩
  | 113 => ⟨S_, .i32⟩
  | 114 => ⟨S700000, .i32⟩
  | 115 => ⟨S700000, .i1⟩
  | 116 => ⟨S_, .i32⟩
  | 117 => ⟨S700000, .i32⟩
  | 118 => ⟨S700000, .i32⟩
  | 119 => ⟨S700000, .i32⟩
  | 120 => ⟨S700000x1, .i32⟩
  | 121 => ⟨S700000, .f32⟩
  | 122 => ⟨S700000, .f32⟩
  | 123 => ⟨S_, .i32⟩
  | 124 => ⟨S700000, .i32⟩
  | 125 => ⟨S700000, .i1⟩
  | 126 => ⟨S_, .i32⟩
  | 127 => ⟨S700000, .i32⟩
  | _ => ⟨S50000x64, .f32⟩

abbrev hbmTy0_1 (i : Nat) : BufTy := match i % 128 with
  | 0 => ⟨S700000, .i32⟩
  | 1 => ⟨S700000, .i32⟩
  | 2 => ⟨S700000x1, .i32⟩
  | 3 => ⟨S700000x128, .f32⟩
  | 4 => ⟨S700000x1, .f32⟩
  | 5 => ⟨S700000x128, .f32⟩
  | 6 => ⟨S700000x128, .f32⟩
  | 7 => ⟨S_, .f32⟩
  | 8 => ⟨S100000x128, .f32⟩
  | 9 => ⟨S700000x1, .i32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S128, .f32⟩
  | 16 => ⟨S1x128, .f32⟩
  | 17 => ⟨S100000x128, .f32⟩
  | 18 => ⟨S100000, .i32⟩
  | 19 => ⟨S700000, .i32⟩
  | 20 => ⟨S700000, .i32⟩
  | 21 => ⟨S_, .f32⟩
  | 22 => ⟨S700000, .f32⟩
  | 23 => ⟨S_, .f32⟩
  | 24 => ⟨S100000, .f32⟩
  | 25 => ⟨S700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S700000, .i32⟩
  | 37 => ⟨S700000, .i1⟩
  | 38 => ⟨S_, .i32⟩
  | 39 => ⟨S700000, .i32⟩
  | 40 => ⟨S700000, .i32⟩
  | 41 => ⟨S700000, .i32⟩
  | 42 => ⟨S700000x1, .i32⟩
  | 43 => ⟨S700000, .f32⟩
  | 44 => ⟨S_, .i32⟩
  | 45 => ⟨S700000, .i32⟩
  | 46 => ⟨S700000, .i1⟩
  | 47 => ⟨S_, .i32⟩
  | 48 => ⟨S700000, .i32⟩
  | 49 => ⟨S700000, .i32⟩
  | 50 => ⟨S700000, .i32⟩
  | 51 => ⟨S700000x1, .i32⟩
  | 52 => ⟨S700000, .f32⟩
  | 53 => ⟨S700000, .f32⟩
  | 54 => ⟨S_, .i32⟩
  | 55 => ⟨S700000, .i32⟩
  | 56 => ⟨S700000, .i1⟩
  | 57 => ⟨S_, .i32⟩
  | 58 => ⟨S700000, .i32⟩
  | 59 => ⟨S700000, .i32⟩
  | 60 => ⟨S700000, .i32⟩
  | 61 => ⟨S700000x1, .i32⟩
  | 62 => ⟨S700000x128, .f32⟩
  | 63 => ⟨S700000x1, .f32⟩
  | 64 => ⟨S700000x128, .f32⟩
  | 65 => ⟨S700000x128, .f32⟩
  | 66 => ⟨S_, .f32⟩
  | 67 => ⟨S100000x128, .f32⟩
  | 68 => ⟨S700000x1, .i32⟩
  | 69 => ⟨S100000x128, .f32⟩
  | 70 => ⟨S1x128, .f32⟩
  | 71 => ⟨S100000x128, .f32⟩
  | 72 => ⟨S100000x128, .f32⟩
  | 73 => ⟨S1x16, .f32⟩
  | 74 => ⟨S100000x16, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x100, .f32⟩
  | .local _ .vmem, ⟨7, _⟩ => ⟨S10000x100, .f32⟩
  | .local _ .vmem, ⟨8, _⟩ => ⟨S100x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S128x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S128x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S128x16, .f32⟩
  | .local _ .vmem, ⟨33, _⟩ => ⟨S1x16, .f32⟩
  | .local _ .vmem, ⟨34, _⟩ => ⟨S10000x16, .f32⟩
  | .local _ .vmem, ⟨35, _⟩ => ⟨S10000x16, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v22 : Ref sig .tc := ⟨.hbm, 44, rfl⟩
abbrev main_c : Ref sig .tc := ⟨.hbm, 45, rfl⟩
abbrev main_v23 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_7 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_14 : Ref sig .tc := ⟨.hbm, 100, rfl⟩
abbrev main_call1_v0 : Ref sig .tc := ⟨.hbm, 101, rfl⟩
abbrev main_call1_v1 : Ref sig .tc := ⟨.hbm, 102, rfl⟩
abbrev main_v67 : Ref sig .tc := ⟨.hbm, 103, rfl⟩
abbrev main_c_15 : Ref sig .tc := ⟨.hbm, 104, rfl⟩
abbrev main_v68 : Ref sig .tc := ⟨.hbm, 105, rfl⟩
abbrev main_v69 : Ref sig .tc := ⟨.hbm, 106, rfl⟩
abbrev main_c_16 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_17 : Ref sig .tc := ⟨.hbm, 113, rfl⟩
abbrev main_v75 : Ref sig .tc := ⟨.hbm, 114, rfl⟩
abbrev main_v76 : Ref sig .tc := ⟨.hbm, 115, rfl⟩
abbrev main_c_18 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_c_19 : Ref sig .tc := ⟨.hbm, 123, rfl⟩
abbrev main_v83 : Ref sig .tc := ⟨.hbm, 124, rfl⟩
abbrev main_v84 : Ref sig .tc := ⟨.hbm, 125, rfl⟩
abbrev main_c_20 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_21 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_22 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_23 : Ref sig .tc := ⟨.hbm, 149, rfl⟩
abbrev main_v105 : Ref sig .tc := ⟨.hbm, 150, rfl⟩
abbrev main_cst_24 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_25 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_26 : Ref sig .tc := ⟨.hbm, 159, rfl⟩
abbrev main_call2_v0 : Ref sig .tc := ⟨.hbm, 160, rfl⟩
abbrev main_call2_v1 : Ref sig .tc := ⟨.hbm, 161, rfl⟩
abbrev main_v112 : Ref sig .tc := ⟨.hbm, 162, rfl⟩
abbrev main_c_27 : Ref sig .tc := ⟨.hbm, 163, rfl⟩
abbrev main_v113 : Ref sig .tc := ⟨.hbm, 164, rfl⟩
abbrev main_v114 : Ref sig .tc := ⟨.hbm, 165, rfl⟩
abbrev main_c_28 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_c_29 : Ref sig .tc := ⟨.hbm, 172, rfl⟩
abbrev main_v120 : Ref sig .tc := ⟨.hbm, 173, rfl⟩
abbrev main_v121 : Ref sig .tc := ⟨.hbm, 174, rfl⟩
abbrev main_c_30 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_c_31 : Ref sig .tc := ⟨.hbm, 182, rfl⟩
abbrev main_v128 : Ref sig .tc := ⟨.hbm, 183, rfl⟩
abbrev main_v129 : Ref sig .tc := ⟨.hbm, 184, rfl⟩
abbrev main_c_32 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_33 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S100x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  inb_S10000x100_S10000x100_0_0 : ∀ a, (![0, 0] : Fin 2 → Nat) a + S10000x100.size a ≤ S10000x100.size a
  h_S10000x100 : 0 < S10000x100.numel
  inb_S100x128_S100x128_0_0 : ∀ a, (![0, 0] : Fin 2 → Nat) a + S100x128.size a ≤ S100x128.size a
  h_S100x128 : 0 < S100x128.numel
  concatenates_S50000x128_S50000x128_S100000x128_d0 : Shape.Concatenates [S50000x128, S50000x128] S100000x128 0
  bcast_S_S128 : S_.BroadcastsInDim S128 (![] : Fin 0 → Fin S128.rank)
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  dot_S10000x64_S64x128_S10000x128_1_0_0_1_n_n_wf : DotDims.WF S10000x64 S64x128 S10000x128 [1] [0] [0] [1] [] []
  dot_S10000x100_S100x128_S10000x128_1_0_0_1_n_n_wf : DotDims.WF S10000x100 S100x128 S10000x128 [1] [0] [0] [1] [] []
  dot_S10000x128_S128x128_S10000x128_1_0_0_1_n_n_wf : DotDims.WF S10000x128 S128x128 S10000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S10000x128_S128x16_S10000x16_1_0_0_1_n_n_wf : DotDims.WF S10000x128 S128x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x100.size a ≤ S50000x100.size a
  hwx1_0 : ∀ i : grid1.Coords, EltTy.bits .f32 = 32 ∨ (Rect.block (s := S50000x100) S10000x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S100x128.size a ≤ S100x128.size a
  hwx1_1 : ∀ i : grid1.Coords, EltTy.bits .f32 = 32 ∨ (Rect.block (s := S100x128) S100x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .f32 = 32 ∨ (Rect.block (s := S50000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x128.size a ≤ S100000x128.size a
  hwx4_3 : ∀ i : grid4.Coords, EltTy.bits .f32 = 32 ∨ (Rect.block (s := S100000x128) S10000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x16.size a ≤ S128x16.size a
  hwx5_1 : ∀ i : grid5.Coords, EltTy.bits .f32 = 32 ∨ (Rect.block (s := S128x16) S128x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x16.size a ≤ S1x16.size a
  hwx5_2 : ∀ i : grid5.Coords, EltTy.bits .f32 = 32 ∨ (Rect.block (s := S1x16) S1x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x16.size a ≤ S100000x16.size a
  hwx5_3 : ∀ i : grid5.Coords, EltTy.bits .f32 = 32 ∨ (Rect.block (s := S100000x16) S10000x16.size (cc5_transform_3 i) (hinb5_3 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x100_S100x128_S10000x128_1_0_0_1_n_n : DotDims S10000x100 S100x128 S10000x128 where
  lhsContracting := [1]
  rhsContracting := [0]
  lhsNonContracting := [0]
  rhsNonContracting := [1]
  lhsBatch := []
  rhsBatch := []
  wf := dot_S10000x100_S100x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S100x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v98) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v100) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v101) S10000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v143) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg13) S128x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v144) S1x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v145) S10000x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x64 : Shape := ⟨2, ![50000, 64]⟩
abbrev S50000x100 : Shape := ⟨2, ![50000, 100]⟩
abbrev S2x600000 : Shape := ⟨2, ![2, 600000]⟩
abbrev S64x128 : Shape := ⟨2, ![64, 128]⟩
abbrev S128 : Shape := ⟨1, ![128]⟩
abbrev S100x128 : Shape := ⟨2, ![100, 128]⟩
abbrev S128x128 : Shape := ⟨2, ![128, 128]⟩
abbrev S128x16 : Shape := ⟨2, ![128, 16]⟩
abbrev S16 : Shape := ⟨1, ![16]⟩
abbrev S1x600000 : Shape := ⟨2, ![1, 600000]⟩
abbrev S600000 : Shape := ⟨1, ![600000]⟩
abbrev S50000x128 : Shape := ⟨2, ![50000, 128]⟩
abbrev S1x128 : Shape := ⟨2, ![1, 128]⟩
abbrev S100000x128 : Shape := ⟨2, ![100000, 128]⟩
abbrev S100000 : Shape := ⟨1, ![100000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S100000x16 : Shape := ⟨2, ![100000, 16]⟩
abbrev S1x16 : Shape := ⟨2, ![1, 16]⟩

abbrev nBuf : Space → Nat
  | .hbm => 209
  | .vmem => 0
  | .smem => 0
  | _ => 0

abbrev hbmTy0_0 (i : Nat) : BufTy := match i % 128 with
  | 0 => ⟨S50000x64, .f32⟩
  | 1 => ⟨S50000x100, .f32⟩
  | 2 => ⟨S2x600000, .i32⟩
  | 3 => ⟨S64x128, .f32⟩
  | 4 => ⟨S128, .f32⟩
  | 5 => ⟨S100x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x16, .f32⟩
  | 14 => ⟨S16, .f32⟩
  | 15 => ⟨S1x600000, .i32⟩
  | 16 => ⟨S600000, .i32⟩
  | 17 => ⟨S1x600000, .i32⟩
  | 18 => ⟨S600000, .i32⟩
  | 19 => ⟨S50000x128, .f32⟩
  | 20 => ⟨S1x128, .f32⟩
  | 21 => ⟨S50000x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S100000x128, .f32⟩
  | 28 => ⟨S100000x128, .f32⟩
  | 29 => ⟨S100000, .i32⟩
  | 30 => ⟨S700000, .i32⟩
  | 31 => ⟨S700000, .i32⟩
  | 32 => ⟨S_, .f32⟩
  | 33 => ⟨S700000, .f32⟩
  | 34 => ⟨S_, .f32⟩
  | 35 => ⟨S100000, .f32⟩
  | 36 => ⟨S700000x1, .i32⟩
  | 37 => ⟨S100000, .f32⟩
  | 38 => ⟨S_, .f32⟩
  | 39 => ⟨S100000, .f32⟩
  | 40 => ⟨S100000, .i1⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S700000, .i32⟩
  | 48 => ⟨S700000, .i1⟩
  | 49 => ⟨S_, .i32⟩
  | 50 => ⟨S700000, .i32⟩
  | 51 => ⟨S700000, .i32⟩
  | 52 => ⟨S700000, .i32⟩
  | 53 => ⟨S700000x1, .i32⟩
  | 54 => ⟨S700000, .f32⟩
  | 55 => ⟨S_, .i32⟩
  | 56 => ⟨S700000, .i32⟩
  | 57 => ⟨S700000, .i1⟩
  | 58 => ⟨S_, .i32⟩
  | 59 => ⟨S700000, .i32⟩
  | 60 => ⟨S700000, .i32⟩
  | 61 => ⟨S700000, .i32⟩
  | 62 => ⟨S700000x1, .i32⟩
  | 63 => ⟨S700000, .f32⟩
  | 64 => ⟨S700000, .f32⟩
  | 65 => ⟨S_, .i32⟩
  | 66 => ⟨S700000, .i32⟩
  | 67 => ⟨S700000, .i1⟩
  | 68 => ⟨S_, .i32⟩
  | 69 => ⟨S700000, .i32⟩
  | 70 => ⟨S700000, .i32⟩
  | 71 => ⟨S700000, .i32⟩
  | 72 => ⟨S700000x1, .i32⟩
  | 73 => ⟨S700000x128, .f32⟩
  | 74 => ⟨S700000x1, .f32⟩
  | 75 => ⟨S700000x128, .f32⟩
  | 76 => ⟨S700000x128, .f32⟩
  | 77 => ⟨S_, .f32⟩
  | 78 => ⟨S100000x128, .f32⟩
  | 79 => ⟨S700000x1, .i32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S100000x128, .f32⟩
  | 88 => ⟨S100000, .i32⟩
  | 89 => ⟨S700000, .i32⟩
  | 90 => ⟨S700000, .i32⟩
  | 91 => ⟨S_, .f32⟩
  | 92 => ⟨S700000, .f32⟩
  | 93 => ⟨S_, .f32⟩
  | 94 => ⟨S100000, .f32⟩
  | 95 => ⟨S700000x1, .i32⟩
  | 96 => ⟨S100000, .f32⟩
  | 97 => ⟨S_, .f32⟩
  | 98 => ⟨S100000, .f32⟩
  | 99 => ⟨S100000, .i1⟩
  | 100 => ⟨S100000, .f32⟩
  | 101 => ⟨S_, .f32⟩
  | 102 => ⟨S_, .f32⟩
  | 103 => ⟨S100000, .f32⟩
  | 104 => ⟨S100000, .f32⟩
  | 105 => ⟨S_, .i32⟩
  | 106 => ⟨S700000, .i32⟩
  | 107 => ⟨S700000, .i1⟩
  | 108 => ⟨S_, .i32⟩
  | 109 => ⟨S700000, .i32⟩
  | 110 => ⟨S700000, .i32⟩
  | 111 => ⟨S700000, .i32⟩
  | 112 => ⟨S700000x1, .i32⟩
  | 113 => ⟨S700000, .f32⟩
  | 114 => ⟨S_, .i32⟩
  | 115 => ⟨S700000, .i32⟩
  | 116 => ⟨S700000, .i1⟩
  | 117 => ⟨S_, .i32⟩
  | 118 => ⟨S700000, .i32⟩
  | 119 => ⟨S700000, .i32⟩
  | 120 => ⟨S700000, .i32⟩
  | 121 => ⟨S700000x1, .i32⟩
  | 122 => ⟨S700000, .f32⟩
  | 123 => ⟨S700000, .f32⟩
  | 124 => ⟨S_, .i32⟩
  | 125 => ⟨S700000, .i32⟩
  | 126 => ⟨S700000, .i1⟩
  | 127 => ⟨S_, .i32⟩
  | _ => ⟨S50000x64, .f32⟩

abbrev hbmTy0_1 (i : Nat) : BufTy := match i % 128 with
  | 0 => ⟨S700000, .i32⟩
  | 1 => ⟨S700000, .i32⟩
  | 2 => ⟨S700000, .i32⟩
  | 3 => ⟨S700000x1, .i32⟩
  | 4 => ⟨S700000x128, .f32⟩
  | 5 => ⟨S700000x1, .f32⟩
  | 6 => ⟨S700000x128, .f32⟩
  | 7 => ⟨S700000x128, .f32⟩
  | 8 => ⟨S_, .f32⟩
  | 9 => ⟨S100000x128, .f32⟩
  | 10 => ⟨S700000x1, .i32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S100000x128, .f32⟩
  | 19 => ⟨S100000, .i32⟩
  | 20 => ⟨S700000, .i32⟩
  | 21 => ⟨S700000, .i32⟩
  | 22 => ⟨S_, .f32⟩
  | 23 => ⟨S700000, .f32⟩
  | 24 => ⟨S_, .f32⟩
  | 25 => ⟨S100000, .f32⟩
  | 26 => ⟨S700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S700000, .i32⟩
  | 38 => ⟨S700000, .i1⟩
  | 39 => ⟨S_, .i32⟩
  | 40 => ⟨S700000, .i32⟩
  | 41 => ⟨S700000, .i32⟩
  | 42 => ⟨S700000, .i32⟩
  | 43 => ⟨S700000x1, .i32⟩
  | 44 => ⟨S700000, .f32⟩
  | 45 => ⟨S_, .i32⟩
  | 46 => ⟨S700000, .i32⟩
  | 47 => ⟨S700000, .i1⟩
  | 48 => ⟨S_, .i32⟩
  | 49 => ⟨S700000, .i32⟩
  | 50 => ⟨S700000, .i32⟩
  | 51 => ⟨S700000, .i32⟩
  | 52 => ⟨S700000x1, .i32⟩
  | 53 => ⟨S700000, .f32⟩
  | 54 => ⟨S700000, .f32⟩
  | 55 => ⟨S_, .i32⟩
  | 56 => ⟨S700000, .i32⟩
  | 57 => ⟨S700000, .i1⟩
  | 58 => ⟨S_, .i32⟩
  | 59 => ⟨S700000, .i32⟩
  | 60 => ⟨S700000, .i32⟩
  | 61 => ⟨S700000, .i32⟩
  | 62 => ⟨S700000x1, .i32⟩
  | 63 => ⟨S700000x128, .f32⟩
  | 64 => ⟨S700000x1, .f32⟩
  | 65 => ⟨S700000x128, .f32⟩
  | 66 => ⟨S700000x128, .f32⟩
  | 67 => ⟨S_, .f32⟩
  | 68 => ⟨S100000x128, .f32⟩
  | 69 => ⟨S700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x16, .f32⟩
  | 78 => ⟨S1x16, .f32⟩
  | 79 => ⟨S100000x16, .f32⟩
  | 80 => ⟨S100000x16, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_v24 : Ref sig .tc := ⟨.hbm, 45, rfl⟩
abbrev main_c : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_6 : Ref sig .tc := ⟨.hbm, 65, rfl⟩
abbrev main_v40 : Ref sig .tc := ⟨.hbm, 66, rfl⟩
abbrev main_v41 : Ref sig .tc := ⟨.hbm, 67, rfl⟩
abbrev main_c_7 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call1_cst : Ref sig .tc := ⟨.hbm, 84, rfl⟩
abbrev main_call1_v0 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_9 : Ref sig .tc := ⟨.hbm, 91, rfl⟩
abbrev main_v61 : Ref sig .tc := ⟨.hbm, 92, rfl⟩
abbrev main_cst_10 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_12 : Ref sig .tc := ⟨.hbm, 101, rfl⟩
abbrev main_call2_v0 : Ref sig .tc := ⟨.hbm, 102, rfl⟩
abbrev main_call2_v1 : Ref sig .tc := ⟨.hbm, 103, rfl⟩
abbrev main_v68 : Ref sig .tc := ⟨.hbm, 104, rfl⟩
abbrev main_c_13 : Ref sig .tc := ⟨.hbm, 105, rfl⟩
abbrev main_v69 : Ref sig .tc := ⟨.hbm, 106, rfl⟩
abbrev main_v70 : Ref sig .tc := ⟨.hbm, 107, rfl⟩
abbrev main_c_14 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_c_15 : Ref sig .tc := ⟨.hbm, 114, rfl⟩
abbrev main_v76 : Ref sig .tc := ⟨.hbm, 115, rfl⟩
abbrev main_v77 : Ref sig .tc := ⟨.hbm, 116, rfl⟩
abbrev main_c_16 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_c_17 : Ref sig .tc := ⟨.hbm, 124, rfl⟩
abbrev main_v84 : Ref sig .tc := ⟨.hbm, 125, rfl⟩
abbrev main_v85 : Ref sig .tc := ⟨.hbm, 126, rfl⟩
abbrev main_c_18 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_19 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_call3_cst : Ref sig .tc := ⟨.hbm, 143, rfl⟩
abbrev main_call3_v0 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_20 : Ref sig .tc := ⟨.hbm, 150, rfl⟩
abbrev main_v105 : Ref sig .tc := ⟨.hbm, 151, rfl⟩
abbrev main_cst_21 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_22 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_23 : Ref sig .tc := ⟨.hbm, 160, rfl⟩
abbrev main_call4_v0 : Ref sig .tc := ⟨.hbm, 161, rfl⟩
abbrev main_call4_v1 : Ref sig .tc := ⟨.hbm, 162, rfl⟩
abbrev main_v112 : Ref sig .tc := ⟨.hbm, 163, rfl⟩
abbrev main_c_24 : Ref sig .tc := ⟨.hbm, 164, rfl⟩
abbrev main_v113 : Ref sig .tc := ⟨.hbm, 165, rfl⟩
abbrev main_v114 : Ref sig .tc := ⟨.hbm, 166, rfl⟩
abbrev main_c_25 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_c_26 : Ref sig .tc := ⟨.hbm, 173, rfl⟩
abbrev main_v120 : Ref sig .tc := ⟨.hbm, 174, rfl⟩
abbrev main_v121 : Ref sig .tc := ⟨.hbm, 175, rfl⟩
abbrev main_c_27 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_c_28 : Ref sig .tc := ⟨.hbm, 183, rfl⟩
abbrev main_v128 : Ref sig .tc := ⟨.hbm, 184, rfl⟩
abbrev main_v129 : Ref sig .tc := ⟨.hbm, 185, rfl⟩
abbrev main_c_29 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_30 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_call5_cst : Ref sig .tc := ⟨.hbm, 202, rfl⟩
abbrev main_call5_v0 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S100000x128_d0 : Shape.Concatenates [S50000x128, S50000x128] S100000x128 0
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S50000x64_S64x128_S50000x128_1_0_0_1_n_n_wf : DotDims.WF S50000x64 S64x128 S50000x128 [1] [0] [0] [1] [] []
  dot_S50000x100_S100x128_S50000x128_1_0_0_1_n_n_wf : DotDims.WF S50000x100 S100x128 S50000x128 [1] [0] [0] [1] [] []
  dot_S100000x128_S128x128_S100000x128_1_0_0_1_n_n_wf : DotDims.WF S100000x128 S128x128 S100000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x16_S100000x16_1_0_0_1_n_n_wf : DotDims.WF S100000x128 S128x16 S100000x16 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x100_S100x128_S50000x128_1_0_0_1_n_n : DotDims S50000x100 S100x128 S50000x128 where
  lhsContracting := [1]
  rhsContracting := [0]
  lhsNonContracting := [0]
  rhsNonContracting := [1]
  lhsBatch := []
  rhsBatch := []
  wf := dot_S50000x100_S100x128_S50000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.Stage.lean ====
/-
  One round of normalised neighbourhood averaging on the graph, as both programs spell it on the host.

  From the edge list (sources `s`, targets `d`, 600000 edges) every node gets a self loop (700000 edges in all).  The
  degree of a node is the number of edges that end in it; `dinv` is its inverse square root where the degree is
  positive and zero elsewhere.  Edge `e` carries the row of `L` at its source scaled by `dinv` at its source times
  `dinv` at its target, and every node sums the rows carried by the edges ending in it; the bias row is added last.
  Negative node numbers are wrapped by the node count before each lookup, as array indexing does.

  The round is a function of the incoming rows `L`, the edge list and the bias row only.
-/
import proofs.«152641_j25168508355091_1_alg».proof.ReferenceIdeal

noncomputable section
namespace Cert.ReferenceIdeal.Stage
open Cert.ReferenceIdeal Idealize.ShloMosaic Idealize.ShloMosaic.TcCoe

variable {F : FTy → Type} [FloatOps F] [Facts₀]
open Facts₀

/-- Node numbers of all 700000 edges: the given ones followed by the self loops `0, 1, …, 99999`. -/
def withLoops (s : (⟨S600000, .i32⟩ : BufTy).Contents (Elt F)) : (⟨S700000, .i32⟩ : BufTy).Contents (Elt F) :=
  concatenate S700000 0 [⟨S600000, s⟩, ⟨S100000, (iotaInDim S100000 32 0)⟩] concatenates_S600000_S100000_S700000_d0

/-- A node number made non-negative by adding the node count where it is negative, as a column of lookups. -/
def wrapped (s : (⟨S700000, .i32⟩ : BufTy).Contents (Elt F)) : (⟨S700000x1, .i32⟩ : BufTy).Contents (Elt F) :=
  broadcastInDim S700000x1 ![0] bcast_S700000_S700000x1_0
    (select (cmpi .slt s (broadcastInDim S700000 ![] bcast_S_S700000 (constantI S_ 32 0#32)))
      (addi s (broadcastInDim S700000 ![] bcast_S_S700000 (constantI S_ 32 100000#32))) s)

/-- The number of edges ending in each node. -/
def degree (d : (⟨S700000, .i32⟩ : BufTy).Contents (Elt F)) : (⟨S100000, .f32⟩ : BufTy).Contents (Elt F) :=
  Host.scatterAdd scatter_S100000_S700000x1_S700000_n_0_0_1
    (broadcastInDim S100000 ![] bcast_S_S100000 (constant S_ .f32 0x00000000#32))
    (broadcastInDim S700000x1 ![0] bcast_S700000_S700000x1_0 d)
    (broadcastInDim S700000 ![] bcast_S_S700000 (constant S_ .f32 0x3F800000#32))

/-- The inverse square root of the degree where it is positive, zero elsewhere. -/
def invSqrtDegree (d : (⟨S700000, .i32⟩ : BufTy).Contents (Elt F)) : (⟨S100000, .f32⟩ : BufTy).Contents (Elt F) :=
  select (cmpf .ogt (degree (F := F) d) (broadcastInDim S100000 ![] bcast_S_S100000 (constant S_ .f32 0x00000000#32)))
    (Host.rsqrt (degree (F := F) d))
    (broadcastInDim S100000 ![] bcast_S_S100000 (id (constant S_ .f32 0x00000000#32)))

/-- Each edge's weight: `dinv` at its source times `dinv` at its target. -/
def edgeWeight (s d : (⟨S700000, .i32⟩ : BufTy).Contents (Elt F)) : (⟨S700000, .f32⟩ : BufTy).Contents (Elt F) :=
  mulf (Host.gather gather_S100000_S700000x1_S700000_n_0_n_n_0_1_1 (invSqrtDegree (F := F) d) (wrapped (F := F) s))
    (Host.gather gather_S100000_S700000x1_S700000_n_0_n_n_0_1_1 (invSqrtDegree (F := F) d) (wrapped (F := F) d))

/-- One round: gather the rows at the sources, scale by the edge weights, sum into the targets, add the bias row. -/
def round (L : (⟨S100000x128, .f32⟩ : BufTy).Contents (Elt F)) (s d : (⟨S600000, .i32⟩ : BufTy).Contents (Elt F)) (b : (⟨S128, .f32⟩ : BufTy).Contents (Elt F)) : (⟨S100000x128, .f32⟩ : BufTy).Contents (Elt F) :=
  addf
    (Host.scatterAdd scatter_S100000x128_S700000x1_S700000x128_1_0_0_1
      (broadcastInDim S100000x128 ![] bcast_S_S100000x128 (constant S_ .f32 0x00000000#32))
      (broadcastInDim S700000x1 ![0] bcast_S700000_S700000x1_0 (withLoops (F := F) d))
      (mulf (Host.gather gather_S100000x128_S700000x1_S700000x128_1_0_n_n_0_1_1128 L (wrapped (F := F) (withLoops (F := F) s)))
        (broadcastInDim S700000x128 ![0, 1] bcast_S700000x1_S700000x128_0_1
          (broadcastInDim S700000x1 ![0] bcast_S700000_S700000x1_0
            (edgeWeight (F := F) (withLoops (F := F) s) (withLoops (F := F) d))))))
    (broadcastInDim S100000x128 ![0, 1] bcast_S1x128_S100000x128_0_1 (broadcastInDim S1x128 ![1] bcast_S128_S1x128_1 b))

end Cert.ReferenceIdeal.Stage
end
-- ==== Proof.Product0.lean ====
/-
  Tiled matrix product number 0 of the idealized kernel, read as one function of its whole operand arrays.

  The product runs over 5 row tiles of 10000 rows.  At a tile the body loads 10000 rows of the left operand, the whole
  64 × 128 right operand and the 1 × 128 bias row, multiplies, adds the bias row to every
  row and stores the tile.  Over the extended reals the narrowing to half precision before the product is the identity and
  the product into a zero accumulator is the plain sum over the contracted coordinate, so entry (p, q) of the tile is
    (∑ k, x p k · w k q) + b q.
  Row p of tile t is row 10000·t + p of the array and the tiles cover all 50000 rows, so the array the product leaves is
  the same formula read over whole arrays.
-/
import proofs.«152641_j25168508355091_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Product0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Rows times a matrix plus a bias row, over whole arrays. -/
def affine (X : S50000x64.Idx → EReal) (W : S64x128.Idx → EReal) (B : S1x128.Idx → EReal) : S50000x128.Idx → EReal :=
  fun i => (∑ k : Fin 64, X (ix2 (i 0) k) * W (ix2 k (i 1))) + B (ix2 0 (i 1))

theorem origin : (![0, 0] : Fin 2 → Nat) = fun _ => 0 := funext fun a => by fin_cases a <;> rfl

/-- The contracted coordinate of the product, read on the left operand: row of the output entry, column `k`. -/
theorem lhs_row (j : S10000x128.Idx) (u : dot_S10000x64_S64x128_S10000x128_1_0_0_1_n_n.contr.Idx) : (dot_S10000x64_S64x128_S10000x128_1_0_0_1_n_n.lhsIdx j u 0).val = (j 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem rhs_col (j : S10000x128.Idx) (u : dot_S10000x64_S64x128_S10000x128_1_0_0_1_n_n.contr.Idx) : (dot_S10000x64_S64x128_S10000x128_1_0_0_1_n_n.rhsIdx j u 1).val = (j 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- The tile's matrix product into a zero accumulator, at an entry: the sum over the contracted coordinate. -/
theorem product_apply (l : FVec Ideal S10000x64 .bf16) (r : FVec Ideal S64x128 .bf16) (p : Fin 10000) (q : Fin 128) :
    matmul dot_S10000x64_S64x128_S10000x128_1_0_0_1_n_n none l r (constant S10000x128 .f32 0x00000000#32) (ix2 p q) = ∑ k : Fin 64, l (ix2 p k) * r (ix2 k q) := by
  show FloatOps.matmul dot_S10000x64_S64x128_S10000x128_1_0_0_1_n_n none l r (constant S10000x128 .f32 0x00000000#32) (ix2 p q) = _
  rw [Ideal.matmul_constant_zero_apply, ← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx (ix2 p q) ((ValueIdx.contrEquiv1 dot_S10000x64_S64x128_S10000x128_1_0_0_1_n_n 64 rfl rfl).symm k) = ix2 p k := funext fun a => Fin.ext (by
    match a with
    | ⟨0, _⟩ => exact lhs_row _ _
    | ⟨1, _⟩ => exact (dot_S10000x64_S64x128_S10000x128_1_0_0_1_n_n.lhsIdx_val_of_single rfl (ix2 p q) _).trans hk)
  have er : dot_S10000x64_S64x128_S10000x128_1_0_0_1_n_n.rhsIdx (ix2 p q) ((ValueIdx.contrEquiv1 dot_S10000x64_S64x128_S10000x128_1_0_0_1_n_n 64 rfl rfl).symm k) = ix2 k q := funext fun a => Fin.ext (by
    match a with
    | ⟨0, _⟩ => exact (dot_S10000x64_S64x128_S10000x128_1_0_0_1_n_n.rhsIdx_val_of_single rfl (ix2 p q) _).trans hk
    | ⟨1, _⟩ => exact rhs_col _ _)
  rw [el, er]

/-- The bias row spread over the tile's rows, at an entry. -/
theorem bias_apply (b : Vec Ideal S1x128 .f32) (p : Fin 10000) (q : Fin 128) :
    broadcastTo S10000x128 (shapeCast S1x128 b shapeCasts_S1x128_S1x128) broadcasts_S1x128_S10000x128 (ix2 p q) = b (ix2 0 q) := by
  rw [shapeCast_self]
  refine broadcastTo_apply b broadcasts_S1x128_S10000x128 (ix2 p q) (ix2 0 q) fun a => ?_
  match a with
  | ⟨0, _⟩ => rfl
  | ⟨1, _⟩ => rfl

/-- What the body stores, at an entry of the tile. -/
theorem stored_apply (x : Vec Ideal S10000x64 .f32) (w : Vec Ideal S64x128 .f32) (b : Vec Ideal S1x128 .f32) (p : Fin 10000) (q : Fin 128) :
    k0_pay1 (F := Ideal) x w b (ix2 p q) = (∑ k : Fin 64, x (ix2 p k) * w (ix2 k q)) + b (ix2 0 q) := by
  unfold k0_pay1
  rw [addf_apply, product_apply, bias_apply]
  skip
  rfl

/-! ## From tiles to the array -/

variable (V : (c : Dev nD) → (b : Ref sig .tc) → Buf (Elt Ideal) ((c : Thread nD τ).loc b))

/-- The tiling, decided over the grid: tile `t` of the left operand and of the output is row block `t`; the right
    operand and the bias row are taken whole at every tile. -/
theorem tiles : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- What tile `t` writes back is the tile's rows of `affine` of the operand arrays as the product finds them. -/
theorem written (c : Dev nD) (t : Fin cfg0.N) :
    (dat0 V c).flushed 3 t = ((cfg0.win 3).blk t).view.read (Elt Ideal)
      (affine (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero origin]
  simp only [View.ld_unit_zero (S := S10000x64) origin, View.ld_unit_zero (S := S64x128) origin, View.ld_unit_zero (S := S1x128) origin]
  obtain ⟨e0, e1, e2, e3, e4, e5, e6, e7⟩ := tiles t
  funext j
  obtain ⟨p, q, rfl⟩ : ∃ (p : Fin 10000) (q : Fin 128), j = ix2 p q := ⟨j 0, j 1, eq_ix2 j⟩
  refine (stored_apply (iblk0 V c 0 t) (iblk0 V c 1 t) (iblk0 V c 2 t) p q).trans ?_
  have hx : ∀ k : Fin 64, iblk0 V c 0 t (ix2 p k)
      = V c (Pipeline.arrRef spec0 0) (ix2 ((((cfg0.win 3).blk t).view.emb (ix2 p q)) 0) k) := fun k => by
    show V c (Pipeline.arrRef spec0 0) (((cfg0.win 0).blk t).view.emb (ix2 p k)) = _
    refine congrArg _ (funext fun a => Fin.ext ?_)
    match a with
    | ⟨0, _⟩ => show win0_0.index t (0 : Fin 2) * 10000 + 1 * p.val = win0_3.index t (0 : Fin 2) * 10000 + 1 * p.val; omega
    | ⟨1, _⟩ => show win0_0.index t (1 : Fin 2) * 64 + 1 * k.val = k.val; omega
  have hw : ∀ k : Fin 64, iblk0 V c 1 t (ix2 k q)
      = V c (Pipeline.arrRef spec0 1) (ix2 k ((((cfg0.win 3).blk t).view.emb (ix2 p q)) 1)) := fun k => by
    show V c (Pipeline.arrRef spec0 1) (((cfg0.win 1).blk t).view.emb (ix2 k q)) = _
    refine congrArg _ (funext fun a => Fin.ext ?_)
    match a with
    | ⟨0, _⟩ => show win0_1.index t (0 : Fin 2) * 64 + 1 * k.val = k.val; omega
    | ⟨1, _⟩ => show win0_1.index t (1 : Fin 2) * 128 + 1 * q.val = win0_3.index t (1 : Fin 2) * 128 + 1 * q.val; omega
  have hb : iblk0 V c 2 t (ix2 0 q)
      = V c (Pipeline.arrRef spec0 2) (ix2 0 ((((cfg0.win 3).blk t).view.emb (ix2 p q)) 1)) := by
    show V c (Pipeline.arrRef spec0 2) (((cfg0.win 2).blk t).view.emb (ix2 0 q)) = _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega
  rw [hb]
  simp only [hx, hw]
  rfl

/-- An index of the output array lies in tile `t` iff each coordinate lies in the tile's range on its axis. -/
theorem in_tile (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v5).slice (win0_3.rect t)).set ↔ _
  rw [View.set_slice_whole, Rect.mem_set_unit]
  exact Iff.rfl

/-- Every row of the output lies in the tile numbered by its row divided by 10000. -/
theorem covered (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 5 := N_0
  obtain ⟨t, ht⟩ : ∃ t : Fin cfg0.N, t.val = (i 0).val / 10000 := ⟨⟨(i 0).val / 10000, by rw [hN]; omega⟩, rfl⟩
  obtain ⟨e0, e1, e2, e3, e4, e5, e6, e7⟩ := tiles t
  refine ⟨t, flush0_3 t, ?_⟩
  rw [in_tile]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The array the product leaves is `affine` of its operand arrays as it found them. -/
theorem array (c : Dev nD) :
    (dat0 V c).arrAt 3 cfg0.N
      = affine (V c (Pipeline.arrRef spec0 0)) (V c (Pipeline.arrRef spec0 1)) (V c (Pipeline.arrRef spec0 2)) :=
  (dat0 V c).arrAt_eq_of_cover 3 _ (fun t _ => written V c t) covered

end Cert.KernelIdeal.Product0

end
-- ==== Proof.Product1.lean ====
/-
  Tiled matrix product number 1 of the idealized kernel, read as one function of its whole operand arrays.

  The product runs over 5 row tiles of 10000 rows.  At a tile the body loads 10000 rows of the left operand, the whole
  100 × 128 right operand and the 1 × 128 bias row, multiplies, adds the bias row to every
  row and stores the tile.  Over the extended reals the narrowing to half precision before the product is the identity and
  the product into a zero accumulator is the plain sum over the contracted coordinate, so entry (p, q) of the tile is
    (∑ k, x p k · w k q) + b q.
  Row p of tile t is row 10000·t + p of the array and the tiles cover all 50000 rows, so the array the product leaves is
  the same formula read over whole arrays.
-/
import proofs.«152641_j25168508355091_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Product1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Rows times a matrix plus a bias row, over whole arrays. -/
def affine (X : S50000x100.Idx → EReal) (W : S100x128.Idx → EReal) (B : S1x128.Idx → EReal) : S50000x128.Idx → EReal :=
  fun i => (∑ k : Fin 100, X (ix2 (i 0) k) * W (ix2 k (i 1))) + B (ix2 0 (i 1))

theorem origin : (![0, 0] : Fin 2 → Nat) = fun _ => 0 := funext fun a => by fin_cases a <;> rfl

/-- The contracted coordinate of the product, read on the left operand: row of the output entry, column `k`. -/
theorem lhs_row (j : S10000x128.Idx) (u : dot_S10000x100_S100x128_S10000x128_1_0_0_1_n_n.contr.Idx) : (dot_S10000x100_S100x128_S10000x128_1_0_0_1_n_n.lhsIdx j u 0).val = (j 0).val := by
  unfold DotDims.lhsIdx
  rw [dif_neg (show ¬(0 : Fin S10000x100.rank) ∈ dot_S10000x100_S100x128_S10000x128_1_0_0_1_n_n.lhsBatch by decide), dif_pos (show (0 : Fin S10000x100.rank) ∈ dot_S10000x100_S100x128_S10000x128_1_0_0_1_n_n.lhsNonContracting by decide)]
  rfl
theorem rhs_col (j : S10000x128.Idx) (u : dot_S10000x100_S100x128_S10000x128_1_0_0_1_n_n.contr.Idx) : (dot_S10000x100_S100x128_S10000x128_1_0_0_1_n_n.rhsIdx j u 1).val = (j 1).val := by
  unfold DotDims.rhsIdx
  rw [dif_neg (show ¬(1 : Fin S100x128.rank) ∈ dot_S10000x100_S100x128_S10000x128_1_0_0_1_n_n.rhsBatch by decide), dif_pos (show (1 : Fin S100x128.rank) ∈ dot_S10000x100_S100x128_S10000x128_1_0_0_1_n_n.rhsNonContracting by decide)]
  rfl

/-- The tile's matrix product into a zero accumulator, at an entry: the sum over the contracted coordinate. -/
theorem product_apply (l : FVec Ideal S10000x100 .bf16) (r : FVec Ideal S100x128 .bf16) (p : Fin 10000) (q : Fin 128) :
    matmul dot_S10000x100_S100x128_S10000x128_1_0_0_1_n_n none l r (constant S10000x128 .f32 0x00000000#32) (ix2 p q) = ∑ k : Fin 100, l (ix2 p k) * r (ix2 k q) := by
  show FloatOps.matmul dot_S10000x100_S100x128_S10000x128_1_0_0_1_n_n none l r (constant S10000x128 .f32 0x00000000#32) (ix2 p q) = _
  rw [Ideal.matmul_constant_zero_apply, ← Equiv.sum_comp (ValueIdx.contrEquiv1 dot_S10000x100_S100x128_S10000x128_1_0_0_1_n_n 100 rfl rfl).symm]
  refine Finset.sum_congr rfl fun k _ => ?_
  have hk := ValueIdx.contrEquiv1_symm_val dot_S10000x100_S100x128_S10000x128_1_0_0_1_n_n 100 rfl rfl k
  have el : dot_S10000x100_S100x128_S10000x128_1_0_0_1_n_n.lhsIdx (ix2 p q) ((ValueIdx.contrEquiv1 dot_S10000x100_S100x128_S10000x128_1_0_0_1_n_n 100 rfl rfl).symm k) = ix2 p k := funext fun a => Fin.ext (by
    match a with
    | ⟨0, _⟩ => exact lhs_row _ _
    | ⟨1, _⟩ => exact (dot_S10000x100_S100x128_S10000x128_1_0_0_1_n_n.lhsIdx_val_of_single rfl (ix2 p q) _).trans hk)
  have er : dot_S10000x100_S100x128_S10000x128_1_0_0_1_n_n.rhsIdx (ix2 p q) ((ValueIdx.contrEquiv1 dot_S10000x100_S100x128_S10000x128_1_0_0_1_n_n 100 rfl rfl).symm k) = ix2 k q := funext fun a => Fin.ext (by
    match a with
    | ⟨0, _⟩ => exact (dot_S10000x100_S100x128_S10000x128_1_0_0_1_n_n.rhsIdx_val_of_single rfl (ix2 p q) _).trans hk
    | ⟨1, _⟩ => exact rhs_col _ _)
  rw [el, er]

/-- The bias row spread over the tile's rows, at an entry. -/
theorem bias_apply (b : Vec Ideal S1x128 .f32) (p : Fin 10000) (q : Fin 128) :
    broadcastTo S10000x128 (shapeCast S1x128 b shapeCasts_S1x128_S1x128) broadcasts_S1x128_S10000x128 (ix2 p q) = b (ix2 0 q) := by
  rw [shapeCast_self]
  refine broadcastTo_apply b broadcasts_S1x128_S10000x128 (ix2 p q) (ix2 0 q) fun a => ?_
  match a with
  | ⟨0, _⟩ => rfl
  | ⟨1, _⟩ => rfl

/-- What the body stores, at an entry of the tile. -/
theorem stored_apply (x : Vec Ideal S10000x100 .f32) (w : Vec Ideal S100x128 .f32) (b : Vec Ideal S1x128 .f32) (p : Fin 10000) (q : Fin 128) :
    k1_pay1 (F := Ideal) x w b (ix2 p q) = (∑ k : Fin 100, x (ix2 p k) * w (ix2 k q)) + b (ix2 0 q) := by
  unfold k1_pay1
  rw [addf_apply, product_apply, bias_apply]
  skip
  rfl

/-! ## From tiles to the array -/

variable (V : (c : Dev nD) → (b : Ref sig .tc) → Buf (Elt Ideal) ((c : Thread nD τ).loc b))

/-- The tiling, decided over the grid: tile `t` of the left operand and of the output is row block `t`; the right
    operand and the bias row are taken whole at every tile. -/
theorem tiles : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

/-- What tile `t` writes back is the tile's rows of `affine` of the operand arrays as the product finds them. -/
theorem written (c : Dev nD) (t : Fin cfg1.N) :
    (dat1 V c).flushed 3 t = ((cfg1.win 3).blk t).view.read (Elt Ideal)
      (affine (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero origin]
  simp only [View.ld_unit_zero (S := S10000x100) origin, View.ld_unit_zero (S := S100x128) origin, View.ld_unit_zero (S := S1x128) origin]
  obtain ⟨e0, e1, e2, e3, e4, e5, e6, e7⟩ := tiles t
  funext j
  obtain ⟨p, q, rfl⟩ : ∃ (p : Fin 10000) (q : Fin 128), j = ix2 p q := ⟨j 0, j 1, eq_ix2 j⟩
  refine (stored_apply (iblk1 V c 0 t) (iblk1 V c 1 t) (iblk1 V c 2 t) p q).trans ?_
  have hx : ∀ k : Fin 100, iblk1 V c 0 t (ix2 p k)
      = V c (Pipeline.arrRef spec1 0) (ix2 ((((cfg1.win 3).blk t).view.emb (ix2 p q)) 0) k) := fun k => by
    show V c (Pipeline.arrRef spec1 0) (((cfg1.win 0).blk t).view.emb (ix2 p k)) = _
    refine congrArg _ (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 100 + 1 * k.val = k.val; omega
  have hw : ∀ k : Fin 100, iblk1 V c 1 t (ix2 k q)
      = V c (Pipeline.arrRef spec1 1) (ix2 k ((((cfg1.win 3).blk t).view.emb (ix2 p q)) 1)) := fun k => by
    show V c (Pipeline.arrRef spec1 1) (((cfg1.win 1).blk t).view.emb (ix2 k q)) = _
    refine congrArg _ (funext fun a => Fin.ext ?_)
    match a with
    | ⟨0, _⟩ => show win1_1.index t (0 : Fin 2) * 100 + 1 * k.val = k.val; omega
    | ⟨1, _⟩ => show win1_1.index t (1 : Fin 2) * 128 + 1 * q.val = win1_3.index t (1 : Fin 2) * 128 + 1 * q.val; omega
  have hb : iblk1 V c 2 t (ix2 0 q)
      = V c (Pipeline.arrRef spec1 2) (ix2 0 ((((cfg1.win 3).blk t).view.emb (ix2 p q)) 1)) := by
    show V c (Pipeline.arrRef spec1 2) (((cfg1.win 2).blk t).view.emb (ix2 0 q)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  rw [hb]
  simp only [hx, hw]
  rfl

/-- An index of the output array lies in tile `t` iff each coordinate lies in the tile's range on its axis. -/
theorem in_tile (t : Fin cfg1.N) (i : S50000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v7).slice (win1_3.rect t)).set ↔ _
  rw [View.set_slice_whole, Rect.mem_set_unit]
  exact Iff.rfl

/-- Every row of the output lies in the tile numbered by its row divided by 10000. -/
theorem covered (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 5 := N_1
  obtain ⟨t, ht⟩ : ∃ t : Fin cfg1.N, t.val = (i 0).val / 10000 := ⟨⟨(i 0).val / 10000, by rw [hN]; omega⟩, rfl⟩
  obtain ⟨e0, e1, e2, e3, e4, e5, e6, e7⟩ := tiles t
  refine ⟨t, flush1_3 t, ?_⟩
  rw [in_tile]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The array the product leaves is `affine` of its operand arrays as it found them. -/
theorem array (c : Dev nD) :
    (dat1 V c).arrAt 3 cfg1.N
      = affine (V c (Pipeline.arrRef spec1 0)) (V c (Pipeline.arrRef spec1 1)) (V c (Pipeline.arrRef spec1 2)) :=
  (dat1 V c).arrAt_eq_of_cover 3 _ (fun t _ => written V c t) covered

end Cert.KernelIdeal.Product1

end
-- ==== Proof.Product2.lean ====
/-
  Tiled matrix product number 2 of the idealized kernel, read as one function of its whole operand arrays.

  The product runs over 10 row tiles of 10000 rows.  At a tile the body loads 10000 rows of the left operand, the whole
  128 × 128 right operand and the 1 × 128 bias row, multiplies, adds the bias row to every
  row and stores the tile.  Over the extended reals the narrowing to half precision before the product is the identity and
  the product into a zero accumulator is the plain sum over the contracted coordinate, so entry (p, q) of the tile is
    (∑ k, x p k · w k q) + b q.
  Row p of tile t is row 10000·t + p of the array and the tiles cover all 100000 rows, so the array the product leaves is
  the same formula read over whole arrays.
-/
import proofs.«152641_j25168508355091_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Product2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Rows times a matrix plus a bias row, over whole arrays. -/
def affine (X : S100000x128.Idx → EReal) (W : S128x128.Idx → EReal) (B : S1x128.Idx → EReal) : S100000x128.Idx → EReal :=
  fun i => (∑ k : Fin 128, X (ix2 (i 0) k) * W (ix2 k (i 1))) + B (ix2 0 (i 1))

theorem origin : (![0, 0] : Fin 2 → Nat) = fun _ => 0 := funext fun a => by fin_cases a <;> rfl

/-- The contracted coordinate of the product, read on the left operand: row of the output entry, column `k`. -/
theorem lhs_row (j : S10000x128.Idx) (u : dot_S10000x128_S128x128_S10000x128_1_0_0_1_n_n.contr.Idx) : (dot_S10000x128_S128x128_S10000x128_1_0_0_1_n_n.lhsIdx j u 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem rhs_col (j : S10000x128.Idx) (u : dot_S10000x128_S128x128_S10000x128_1_0_0_1_n_n.contr.Idx) : (dot_S10000x128_S128x128_S10000x128_1_0_0_1_n_n.rhsIdx j u 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The tile's matrix product into a zero accumulator, at an entry: the sum over the contracted coordinate. -/
theorem product_apply (l : FVec Ideal S10000x128 .bf16) (r : FVec Ideal S128x128 .bf16) (p : Fin 10000) (q : Fin 128) :
    matmul dot_S10000x128_S128x128_S10000x128_1_0_0_1_n_n none l r (constant S10000x128 .f32 0x00000000#32) (ix2 p q) = ∑ k : Fin 128, l (ix2 p k) * r (ix2 k q) := by
  show FloatOps.matmul dot_S10000x128_S128x128_S10000x128_1_0_0_1_n_n none l r (constant S10000x128 .f32 0x00000000#32) (ix2 p q) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_row _ _
    | ⟨1, _⟩ => exact (dot_S10000x128_S128x128_S10000x128_1_0_0_1_n_n.lhsIdx_val_of_single rfl (ix2 p q) _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (dot_S10000x128_S128x128_S10000x128_1_0_0_1_n_n.rhsIdx_val_of_single rfl (ix2 p q) _).trans hk
    | ⟨1, _⟩ => exact rhs_col _ _)
  rw [el, er]

/-- The bias row spread over the tile's rows, at an entry. -/
theorem bias_apply (b : Vec Ideal S1x128 .f32) (p : Fin 10000) (q : Fin 128) :
    broadcastTo S10000x128 (shapeCast S1x128 b shapeCasts_S1x128_S1x128) broadcasts_S1x128_S10000x128 (ix2 p q) = b (ix2 0 q) := by
  rw [shapeCast_self]
  refine broadcastTo_apply b broadcasts_S1x128_S10000x128 (ix2 p q) (ix2 0 q) fun a => ?_
  match a with
  | ⟨0, _⟩ => rfl
  | ⟨1, _⟩ => rfl

/-- What the body stores, at an entry of the tile. -/
theorem stored_apply (x : Vec Ideal S10000x128 .f32) (w : Vec Ideal S128x128 .f32) (b : Vec Ideal S1x128 .f32) (p : Fin 10000) (q : Fin 128) :
    k2_pay1 (F := Ideal) x w b (ix2 p q) = (∑ k : Fin 128, x (ix2 p k) * w (ix2 k q)) + b (ix2 0 q) := by
  unfold k2_pay1
  rw [addf_apply, product_apply, bias_apply]
  simp only [shapeCast_self]
  rfl

/-! ## From tiles to the array -/

variable (V : (c : Dev nD) → (b : Ref sig .tc) → Buf (Elt Ideal) ((c : Thread nD τ).loc b))

/-- The tiling, decided over the grid: tile `t` of the left operand and of the output is row block `t`; the right
    operand and the bias row are taken whole at every tile. -/
theorem tiles : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) = t.val :=
  (by decide +kernel : ∀ t : Fin grid2.N, _)

/-- What tile `t` writes back is the tile's rows of `affine` of the operand arrays as the product finds them. -/
theorem written (c : Dev nD) (t : Fin cfg2.N) :
    (dat2 V c).flushed 3 t = ((cfg2.win 3).blk t).view.read (Elt Ideal)
      (affine (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero origin]
  simp only [View.ld_unit_zero (S := S10000x128) origin, View.ld_unit_zero (S := S128x128) origin, View.ld_unit_zero (S := S1x128) origin]
  obtain ⟨e0, e1, e2, e3, e4, e5, e6, e7⟩ := tiles t
  funext j
  obtain ⟨p, q, rfl⟩ : ∃ (p : Fin 10000) (q : Fin 128), j = ix2 p q := ⟨j 0, j 1, eq_ix2 j⟩
  refine (stored_apply (iblk2 V c 0 t) (iblk2 V c 1 t) (iblk2 V c 2 t) p q).trans ?_
  have hx : ∀ k : Fin 128, iblk2 V c 0 t (ix2 p k)
      = V c (Pipeline.arrRef spec2 0) (ix2 ((((cfg2.win 3).blk t).view.emb (ix2 p q)) 0) k) := fun k => by
    show V c (Pipeline.arrRef spec2 0) (((cfg2.win 0).blk t).view.emb (ix2 p k)) = _
    refine congrArg _ (funext fun a => Fin.ext ?_)
    match a with
    | ⟨0, _⟩ => show win2_0.index t (0 : Fin 2) * 10000 + 1 * p.val = win2_3.index t (0 : Fin 2) * 10000 + 1 * p.val; omega
    | ⟨1, _⟩ => show win2_0.index t (1 : Fin 2) * 128 + 1 * k.val = k.val; omega
  have hw : ∀ k : Fin 128, iblk2 V c 1 t (ix2 k q)
      = V c (Pipeline.arrRef spec2 1) (ix2 k ((((cfg2.win 3).blk t).view.emb (ix2 p q)) 1)) := fun k => by
    show V c (Pipeline.arrRef spec2 1) (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = win2_3.index t (1 : Fin 2) * 128 + 1 * q.val; omega
  have hb : iblk2 V c 2 t (ix2 0 q)
      = V c (Pipeline.arrRef spec2 2) (ix2 0 ((((cfg2.win 3).blk t).view.emb (ix2 p q)) 1)) := by
    show V c (Pipeline.arrRef spec2 2) (((cfg2.win 2).blk t).view.emb (ix2 0 q)) = _
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  rw [hb]
  simp only [hx, hw]
  rfl

/-- An index of the output array lies in tile `t` iff each coordinate lies in the tile's range on its axis. -/
theorem in_tile (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v11).slice (win2_3.rect t)).set ↔ _
  rw [View.set_slice_whole, Rect.mem_set_unit]
  exact Iff.rfl

/-- Every row of the output lies in the tile numbered by its row divided by 10000. -/
theorem covered (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e0, e1, e2, e3, e4, e5, e6, e7⟩ := tiles t
  refine ⟨t, flush2_3 t, ?_⟩
  rw [in_tile]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- The array the product leaves is `affine` of its operand arrays as it found them. -/
theorem array (c : Dev nD) :
    (dat2 V c).arrAt 3 cfg2.N
      = affine (V c (Pipeline.arrRef spec2 0)) (V c (Pipeline.arrRef spec2 1)) (V c (Pipeline.arrRef spec2 2)) :=
  (dat2 V c).arrAt_eq_of_cover 3 _ (fun t _ => written V c t) covered

end Cert.KernelIdeal.Product2

end
-- ==== Proof.Product3.lean ====
/-
  Tiled matrix product number 3 of the idealized kernel, read as one function of its whole operand arrays.

  The product runs over 10 row tiles of 10000 rows.  At a tile the body loads 10000 rows of the left operand, the whole
  128 × 128 right operand and the 1 × 128 bias row, clamps the left rows below at zero, multiplies, adds the bias row to every
  row and stores the tile.  Over the extended reals the narrowing to half precision before the product is the identity and
  the product into a zero accumulator is the plain sum over the contracted coordinate, so entry (p, q) of the tile is
    (∑ k, max (x p k) 0 · w k q) + b q.
  Row p of tile t is row 10000·t + p of the array and the tiles cover all 100000 rows, so the array the product leaves is
  the same formula read over whole arrays.
-/
import proofs.«152641_j25168508355091_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Product3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Rows times a matrix plus a bias row, the rows clamped below at zero first, over whole arrays. -/
def affine (X : S100000x128.Idx → EReal) (W : S128x128.Idx → EReal) (B : S1x128.Idx → EReal) : S100000x128.Idx → EReal :=
  fun i => (∑ k : Fin 128, max (X (ix2 (i 0) k)) (Ideal.ofBits .f32 0x00000000#32) * W (ix2 k (i 1))) + B (ix2 0 (i 1))

theorem origin : (![0, 0] : Fin 2 → Nat) = fun _ => 0 := funext fun a => by fin_cases a <;> rfl

/-- The contracted coordinate of the product, read on the left operand: row of the output entry, column `k`. -/
theorem lhs_row (j : S10000x128.Idx) (u : dot_S10000x128_S128x128_S10000x128_1_0_0_1_n_n.contr.Idx) : (dot_S10000x128_S128x128_S10000x128_1_0_0_1_n_n.lhsIdx j u 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem rhs_col (j : S10000x128.Idx) (u : dot_S10000x128_S128x128_S10000x128_1_0_0_1_n_n.contr.Idx) : (dot_S10000x128_S128x128_S10000x128_1_0_0_1_n_n.rhsIdx j u 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The tile's matrix product into a zero accumulator, at an entry: the sum over the contracted coordinate. -/
theorem product_apply (l : FVec Ideal S10000x128 .bf16) (r : FVec Ideal S128x128 .bf16) (p : Fin 10000) (q : Fin 128) :
    matmul dot_S10000x128_S128x128_S10000x128_1_0_0_1_n_n none l r (constant S10000x128 .f32 0x00000000#32) (ix2 p q) = ∑ k : Fin 128, l (ix2 p k) * r (ix2 k q) := by
  show FloatOps.matmul dot_S10000x128_S128x128_S10000x128_1_0_0_1_n_n none l r (constant S10000x128 .f32 0x00000000#32) (ix2 p q) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_row _ _
    | ⟨1, _⟩ => exact (dot_S10000x128_S128x128_S10000x128_1_0_0_1_n_n.lhsIdx_val_of_single rfl (ix2 p q) _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (dot_S10000x128_S128x128_S10000x128_1_0_0_1_n_n.rhsIdx_val_of_single rfl (ix2 p q) _).trans hk
    | ⟨1, _⟩ => exact rhs_col _ _)
  rw [el, er]

/-- The bias row spread over the tile's rows, at an entry. -/
theorem bias_apply (b : Vec Ideal S1x128 .f32) (p : Fin 10000) (q : Fin 128) :
    broadcastTo S10000x128 (shapeCast S1x128 b shapeCasts_S1x128_S1x128) broadcasts_S1x128_S10000x128 (ix2 p q) = b (ix2 0 q) := by
  rw [shapeCast_self]
  refine broadcastTo_apply b broadcasts_S1x128_S10000x128 (ix2 p q) (ix2 0 q) fun a => ?_
  match a with
  | ⟨0, _⟩ => rfl
  | ⟨1, _⟩ => rfl

/-- What the body stores, at an entry of the tile. -/
theorem stored_apply (x : Vec Ideal S10000x128 .f32) (w : Vec Ideal S128x128 .f32) (b : Vec Ideal S1x128 .f32) (p : Fin 10000) (q : Fin 128) :
    k3_pay1 (F := Ideal) x w b (ix2 p q) = (∑ k : Fin 128, max (x (ix2 p k)) (Ideal.ofBits .f32 0x00000000#32) * w (ix2 k q)) + b (ix2 0 q) := by
  unfold k3_pay1
  rw [addf_apply, product_apply, bias_apply]
  simp only [shapeCast_self]
  rfl

/-! ## From tiles to the array -/

variable (V : (c : Dev nD) → (b : Ref sig .tc) → Buf (Elt Ideal) ((c : Thread nD τ).loc b))

/-- The tiling, decided over the grid: tile `t` of the left operand and of the output is row block `t`; the right
    operand and the bias row are taken whole at every tile. -/
theorem tiles : ∀ t : Fin cfg3.N, win3_0.index t (0 : Fin 2) = win3_3.index t (0 : Fin 2)
    ∧ win3_0.index t (1 : Fin 2) = 0 ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) = t.val :=
  (by decide +kernel : ∀ t : Fin grid3.N, _)

/-- What tile `t` writes back is the tile's rows of `affine` of the operand arrays as the product finds them. -/
theorem written (c : Dev nD) (t : Fin cfg3.N) :
    (dat3 V c).flushed 3 t = ((cfg3.win 3).blk t).view.read (Elt Ideal)
      (affine (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero origin]
  simp only [View.ld_unit_zero (S := S10000x128) origin, View.ld_unit_zero (S := S128x128) origin, View.ld_unit_zero (S := S1x128) origin]
  obtain ⟨e0, e1, e2, e3, e4, e5, e6, e7⟩ := tiles t
  funext j
  obtain ⟨p, q, rfl⟩ : ∃ (p : Fin 10000) (q : Fin 128), j = ix2 p q := ⟨j 0, j 1, eq_ix2 j⟩
  refine (stored_apply (iblk3 V c 0 t) (iblk3 V c 1 t) (iblk3 V c 2 t) p q).trans ?_
  have hx : ∀ k : Fin 128, iblk3 V c 0 t (ix2 p k)
      = V c (Pipeline.arrRef spec3 0) (ix2 ((((cfg3.win 3).blk t).view.emb (ix2 p q)) 0) k) := fun k => by
    show V c (Pipeline.arrRef spec3 0) (((cfg3.win 0).blk t).view.emb (ix2 p k)) = _
    refine congrArg _ (funext fun a => Fin.ext ?_)
    match a with
    | ⟨0, _⟩ => show win3_0.index t (0 : Fin 2) * 10000 + 1 * p.val = win3_3.index t (0 : Fin 2) * 10000 + 1 * p.val; omega
    | ⟨1, _⟩ => show win3_0.index t (1 : Fin 2) * 128 + 1 * k.val = k.val; omega
  have hw : ∀ k : Fin 128, iblk3 V c 1 t (ix2 k q)
      = V c (Pipeline.arrRef spec3 1) (ix2 k ((((cfg3.win 3).blk t).view.emb (ix2 p q)) 1)) := fun k => by
    show V c (Pipeline.arrRef spec3 1) (((cfg3.win 1).blk t).view.emb (ix2 k q)) = _
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * q.val = win3_3.index t (1 : Fin 2) * 128 + 1 * q.val; omega
  have hb : iblk3 V c 2 t (ix2 0 q)
      = V c (Pipeline.arrRef spec3 2) (ix2 0 ((((cfg3.win 3).blk t).view.emb (ix2 p q)) 1)) := by
    show V c (Pipeline.arrRef spec3 2) (((cfg3.win 2).blk t).view.emb (ix2 0 q)) = _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega
  rw [hb]
  simp only [hx, hw]
  rfl

/-- An index of the output array lies in tile `t` iff each coordinate lies in the tile's range on its axis. -/
theorem in_tile (t : Fin cfg3.N) (i : S100000x128.Idx) :
    i ∈ ((cfg3.win 3).blk t).view.set ↔ ∀ a : Fin 2, win3_3.index t a * S10000x128.size a ≤ (i a).val ∧ (i a).val < win3_3.index t a * S10000x128.size a + S10000x128.size a := by
  show i ∈ ((View.whole main_v56).slice (win3_3.rect t)).set ↔ _
  rw [View.set_slice_whole, Rect.mem_set_unit]
  exact Iff.rfl

/-- Every row of the output lies in the tile numbered by its row divided by 10000. -/
theorem covered (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨e0, e1, e2, e3, e4, e5, e6, e7⟩ := tiles t
  refine ⟨t, flush3_3 t, ?_⟩
  rw [in_tile]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 128 ≤ (i 1).val ∧ (i 1).val < win3_3.index t (1 : Fin 2) * 128 + 128; omega

/-- The array the product leaves is `affine` of its operand arrays as it found them. -/
theorem array (c : Dev nD) :
    (dat3 V c).arrAt 3 cfg3.N
      = affine (V c (Pipeline.arrRef spec3 0)) (V c (Pipeline.arrRef spec3 1)) (V c (Pipeline.arrRef spec3 2)) :=
  (dat3 V c).arrAt_eq_of_cover 3 _ (fun t _ => written V c t) covered

end Cert.KernelIdeal.Product3

end
-- ==== Proof.Product4.lean ====
/-
  Tiled matrix product number 4 of the idealized kernel, read as one function of its whole operand arrays.

  The product runs over 10 row tiles of 10000 rows.  At a tile the body loads 10000 rows of the left operand, the whole
  128 × 128 right operand and the 1 × 128 bias row, clamps the left rows below at zero, multiplies, adds the bias row to every
  row and stores the tile.  Over the extended reals the narrowing to half precision before the product is the identity and
  the product into a zero accumulator is the plain sum over the contracted coordinate, so entry (p, q) of the tile is
    (∑ k, max (x p k) 0 · w k q) + b q.
  Row p of tile t is row 10000·t + p of the array and the tiles cover all 100000 rows, so the array the product leaves is
  the same formula read over whole arrays.
-/
import proofs.«152641_j25168508355091_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Product4

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Rows times a matrix plus a bias row, the rows clamped below at zero first, over whole arrays. -/
def affine (X : S100000x128.Idx → EReal) (W : S128x128.Idx → EReal) (B : S1x128.Idx → EReal) : S100000x128.Idx → EReal :=
  fun i => (∑ k : Fin 128, max (X (ix2 (i 0) k)) (Ideal.ofBits .f32 0x00000000#32) * W (ix2 k (i 1))) + B (ix2 0 (i 1))

theorem origin : (![0, 0] : Fin 2 → Nat) = fun _ => 0 := funext fun a => by fin_cases a <;> rfl

/-- The contracted coordinate of the product, read on the left operand: row of the output entry, column `k`. -/
theorem lhs_row (j : S10000x128.Idx) (u : dot_S10000x128_S128x128_S10000x128_1_0_0_1_n_n.contr.Idx) : (dot_S10000x128_S128x128_S10000x128_1_0_0_1_n_n.lhsIdx j u 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem rhs_col (j : S10000x128.Idx) (u : dot_S10000x128_S128x128_S10000x128_1_0_0_1_n_n.contr.Idx) : (dot_S10000x128_S128x128_S10000x128_1_0_0_1_n_n.rhsIdx j u 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The tile's matrix product into a zero accumulator, at an entry: the sum over the contracted coordinate. -/
theorem product_apply (l : FVec Ideal S10000x128 .bf16) (r : FVec Ideal S128x128 .bf16) (p : Fin 10000) (q : Fin 128) :
    matmul dot_S10000x128_S128x128_S10000x128_1_0_0_1_n_n none l r (constant S10000x128 .f32 0x00000000#32) (ix2 p q) = ∑ k : Fin 128, l (ix2 p k) * r (ix2 k q) := by
  show FloatOps.matmul dot_S10000x128_S128x128_S10000x128_1_0_0_1_n_n none l r (constant S10000x128 .f32 0x00000000#32) (ix2 p q) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_row _ _
    | ⟨1, _⟩ => exact (dot_S10000x128_S128x128_S10000x128_1_0_0_1_n_n.lhsIdx_val_of_single rfl (ix2 p q) _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (dot_S10000x128_S128x128_S10000x128_1_0_0_1_n_n.rhsIdx_val_of_single rfl (ix2 p q) _).trans hk
    | ⟨1, _⟩ => exact rhs_col _ _)
  rw [el, er]

/-- The bias row spread over the tile's rows, at an entry. -/
theorem bias_apply (b : Vec Ideal S1x128 .f32) (p : Fin 10000) (q : Fin 128) :
    broadcastTo S10000x128 (shapeCast S1x128 b shapeCasts_S1x128_S1x128) broadcasts_S1x128_S10000x128 (ix2 p q) = b (ix2 0 q) := by
  rw [shapeCast_self]
  refine broadcastTo_apply b broadcasts_S1x128_S10000x128 (ix2 p q) (ix2 0 q) fun a => ?_
  match a with
  | ⟨0, _⟩ => rfl
  | ⟨1, _⟩ => rfl

/-- What the body stores, at an entry of the tile. -/
theorem stored_apply (x : Vec Ideal S10000x128 .f32) (w : Vec Ideal S128x128 .f32) (b : Vec Ideal S1x128 .f32) (p : Fin 10000) (q : Fin 128) :
    k4_pay1 (F := Ideal) x w b (ix2 p q) = (∑ k : Fin 128, max (x (ix2 p k)) (Ideal.ofBits .f32 0x00000000#32) * w (ix2 k q)) + b (ix2 0 q) := by
  unfold k4_pay1
  rw [addf_apply, product_apply, bias_apply]
  simp only [shapeCast_self]
  rfl

/-! ## From tiles to the array -/

variable (V : (c : Dev nD) → (b : Ref sig .tc) → Buf (Elt Ideal) ((c : Thread nD τ).loc b))

/-- The tiling, decided over the grid: tile `t` of the left operand and of the output is row block `t`; the right
    operand and the bias row are taken whole at every tile. -/
theorem tiles : ∀ t : Fin cfg4.N, win4_0.index t (0 : Fin 2) = win4_3.index t (0 : Fin 2)
    ∧ win4_0.index t (1 : Fin 2) = 0 ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) = t.val :=
  (by decide +kernel : ∀ t : Fin grid4.N, _)

/-- What tile `t` writes back is the tile's rows of `affine` of the operand arrays as the product finds them. -/
theorem written (c : Dev nD) (t : Fin cfg4.N) :
    (dat4 V c).flushed 3 t = ((cfg4.win 3).blk t).view.read (Elt Ideal)
      (affine (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero origin]
  simp only [View.ld_unit_zero (S := S10000x128) origin, View.ld_unit_zero (S := S128x128) origin, View.ld_unit_zero (S := S1x128) origin]
  obtain ⟨e0, e1, e2, e3, e4, e5, e6, e7⟩ := tiles t
  funext j
  obtain ⟨p, q, rfl⟩ : ∃ (p : Fin 10000) (q : Fin 128), j = ix2 p q := ⟨j 0, j 1, eq_ix2 j⟩
  refine (stored_apply (iblk4 V c 0 t) (iblk4 V c 1 t) (iblk4 V c 2 t) p q).trans ?_
  have hx : ∀ k : Fin 128, iblk4 V c 0 t (ix2 p k)
      = V c (Pipeline.arrRef spec4 0) (ix2 ((((cfg4.win 3).blk t).view.emb (ix2 p q)) 0) k) := fun k => by
    show V c (Pipeline.arrRef spec4 0) (((cfg4.win 0).blk t).view.emb (ix2 p k)) = _
    refine congrArg _ (funext fun a => Fin.ext ?_)
    match a with
    | ⟨0, _⟩ => show win4_0.index t (0 : Fin 2) * 10000 + 1 * p.val = win4_3.index t (0 : Fin 2) * 10000 + 1 * p.val; omega
    | ⟨1, _⟩ => show win4_0.index t (1 : Fin 2) * 128 + 1 * k.val = k.val; omega
  have hw : ∀ k : Fin 128, iblk4 V c 1 t (ix2 k q)
      = V c (Pipeline.arrRef spec4 1) (ix2 k ((((cfg4.win 3).blk t).view.emb (ix2 p q)) 1)) := fun k => by
    show V c (Pipeline.arrRef spec4 1) (((cfg4.win 1).blk t).view.emb (ix2 k q)) = _
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = win4_3.index t (1 : Fin 2) * 128 + 1 * q.val; omega
  have hb : iblk4 V c 2 t (ix2 0 q)
      = V c (Pipeline.arrRef spec4 2) (ix2 0 ((((cfg4.win 3).blk t).view.emb (ix2 p q)) 1)) := by
    show V c (Pipeline.arrRef spec4 2) (((cfg4.win 2).blk t).view.emb (ix2 0 q)) = _
    refine congrArg _ (funext fun a => Fin.ext ?_)
    match a with
    | ⟨0, _⟩ => show win4_2.index t (0 : Fin 2) * 1 + 1 * 0 = 0; omega
    | ⟨1, _⟩ => show win4_2.index t (1 : Fin 2) * 128 + 1 * q.val = win4_3.index t (1 : Fin 2) * 128 + 1 * q.val; omega
  rw [hb]
  simp only [hx, hw]
  rfl

/-- An index of the output array lies in tile `t` iff each coordinate lies in the tile's range on its axis. -/
theorem in_tile (t : Fin cfg4.N) (i : S100000x128.Idx) :
    i ∈ ((cfg4.win 3).blk t).view.set ↔ ∀ a : Fin 2, win4_3.index t a * S10000x128.size a ≤ (i a).val ∧ (i a).val < win4_3.index t a * S10000x128.size a + S10000x128.size a := by
  show i ∈ ((View.whole main_v101).slice (win4_3.rect t)).set ↔ _
  rw [View.set_slice_whole, Rect.mem_set_unit]
  exact Iff.rfl

/-- Every row of the output lies in the tile numbered by its row divided by 10000. -/
theorem covered (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨e0, e1, e2, e3, e4, e5, e6, e7⟩ := tiles t
  refine ⟨t, flush4_3 t, ?_⟩
  rw [in_tile]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 128 ≤ (i 1).val ∧ (i 1).val < win4_3.index t (1 : Fin 2) * 128 + 128; omega

/-- The array the product leaves is `affine` of its operand arrays as it found them. -/
theorem array (c : Dev nD) :
    (dat4 V c).arrAt 3 cfg4.N
      = affine (V c (Pipeline.arrRef spec4 0)) (V c (Pipeline.arrRef spec4 1)) (V c (Pipeline.arrRef spec4 2)) :=
  (dat4 V c).arrAt_eq_of_cover 3 _ (fun t _ => written V c t) covered

end Cert.KernelIdeal.Product4

end
-- ==== Proof.Product5.lean ====
/-
  Tiled matrix product number 5 of the idealized kernel, read as one function of its whole operand arrays.

  The product runs over 10 row tiles of 10000 rows.  At a tile the body loads 10000 rows of the left operand, the whole
  128 × 16 right operand and the 1 × 16 bias row, clamps the left rows below at zero, multiplies, adds the bias row to every
  row and stores the tile.  Over the extended reals the narrowing to half precision before the product is the identity and
  the product into a zero accumulator is the plain sum over the contracted coordinate, so entry (p, q) of the tile is
    (∑ k, max (x p k) 0 · w k q) + b q.
  Row p of tile t is row 10000·t + p of the array and the tiles cover all 100000 rows, so the array the product leaves is
  the same formula read over whole arrays.
-/
import proofs.«152641_j25168508355091_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Product5

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Rows times a matrix plus a bias row, the rows clamped below at zero first, over whole arrays. -/
def affine (X : S100000x128.Idx → EReal) (W : S128x16.Idx → EReal) (B : S1x16.Idx → EReal) : S100000x16.Idx → EReal :=
  fun i => (∑ k : Fin 128, max (X (ix2 (i 0) k)) (Ideal.ofBits .f32 0x00000000#32) * W (ix2 k (i 1))) + B (ix2 0 (i 1))

theorem origin : (![0, 0] : Fin 2 → Nat) = fun _ => 0 := funext fun a => by fin_cases a <;> rfl

/-- The contracted coordinate of the product, read on the left operand: row of the output entry, column `k`. -/
theorem lhs_row (j : S10000x16.Idx) (u : dot_S10000x128_S128x16_S10000x16_1_0_0_1_n_n.contr.Idx) : (dot_S10000x128_S128x16_S10000x16_1_0_0_1_n_n.lhsIdx j u 0).val = (j 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem rhs_col (j : S10000x16.Idx) (u : dot_S10000x128_S128x16_S10000x16_1_0_0_1_n_n.contr.Idx) : (dot_S10000x128_S128x16_S10000x16_1_0_0_1_n_n.rhsIdx j u 1).val = (j 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- The tile's matrix product into a zero accumulator, at an entry: the sum over the contracted coordinate. -/
theorem product_apply (l : FVec Ideal S10000x128 .bf16) (r : FVec Ideal S128x16 .bf16) (p : Fin 10000) (q : Fin 16) :
    matmul dot_S10000x128_S128x16_S10000x16_1_0_0_1_n_n none l r (constant S10000x16 .f32 0x00000000#32) (ix2 p q) = ∑ k : Fin 128, l (ix2 p k) * r (ix2 k q) := by
  show FloatOps.matmul dot_S10000x128_S128x16_S10000x16_1_0_0_1_n_n none l r (constant S10000x16 .f32 0x00000000#32) (ix2 p q) = _
  rw [Ideal.matmul_constant_zero_apply, ← Equiv.sum_comp (ValueIdx.contrEquiv1 dot_S10000x128_S128x16_S10000x16_1_0_0_1_n_n 128 rfl rfl).symm]
  refine Finset.sum_congr rfl fun k _ => ?_
  have hk := ValueIdx.contrEquiv1_symm_val dot_S10000x128_S128x16_S10000x16_1_0_0_1_n_n 128 rfl rfl k
  have el : dot_S10000x128_S128x16_S10000x16_1_0_0_1_n_n.lhsIdx (ix2 p q) ((ValueIdx.contrEquiv1 dot_S10000x128_S128x16_S10000x16_1_0_0_1_n_n 128 rfl rfl).symm k) = ix2 p k := funext fun a => Fin.ext (by
    match a with
    | ⟨0, _⟩ => exact lhs_row _ _
    | ⟨1, _⟩ => exact (dot_S10000x128_S128x16_S10000x16_1_0_0_1_n_n.lhsIdx_val_of_single rfl (ix2 p q) _).trans hk)
  have er : dot_S10000x128_S128x16_S10000x16_1_0_0_1_n_n.rhsIdx (ix2 p q) ((ValueIdx.contrEquiv1 dot_S10000x128_S128x16_S10000x16_1_0_0_1_n_n 128 rfl rfl).symm k) = ix2 k q := funext fun a => Fin.ext (by
    match a with
    | ⟨0, _⟩ => exact (dot_S10000x128_S128x16_S10000x16_1_0_0_1_n_n.rhsIdx_val_of_single rfl (ix2 p q) _).trans hk
    | ⟨1, _⟩ => exact rhs_col _ _)
  rw [el, er]

/-- The bias row spread over the tile's rows, at an entry. -/
theorem bias_apply (b : Vec Ideal S1x16 .f32) (p : Fin 10000) (q : Fin 16) :
    broadcastTo S10000x16 (shapeCast S1x16 b shapeCasts_S1x16_S1x16) broadcasts_S1x16_S10000x16 (ix2 p q) = b (ix2 0 q) := by
  rw [shapeCast_self]
  refine broadcastTo_apply b broadcasts_S1x16_S10000x16 (ix2 p q) (ix2 0 q) fun a => ?_
  match a with
  | ⟨0, _⟩ => rfl
  | ⟨1, _⟩ => rfl

/-- What the body stores, at an entry of the tile. -/
theorem stored_apply (x : Vec Ideal S10000x128 .f32) (w : Vec Ideal S128x16 .f32) (b : Vec Ideal S1x16 .f32) (p : Fin 10000) (q : Fin 16) :
    k5_pay1 (F := Ideal) x w b (ix2 p q) = (∑ k : Fin 128, max (x (ix2 p k)) (Ideal.ofBits .f32 0x00000000#32) * w (ix2 k q)) + b (ix2 0 q) := by
  unfold k5_pay1
  rw [addf_apply, product_apply, bias_apply]
  simp only [shapeCast_self]
  rfl

/-! ## From tiles to the array -/

variable (V : (c : Dev nD) → (b : Ref sig .tc) → Buf (Elt Ideal) ((c : Thread nD τ).loc b))

/-- The tiling, decided over the grid: tile `t` of the left operand and of the output is row block `t`; the right
    operand and the bias row are taken whole at every tile. -/
theorem tiles : ∀ t : Fin cfg5.N, win5_0.index t (0 : Fin 2) = win5_3.index t (0 : Fin 2)
    ∧ win5_0.index t (1 : Fin 2) = 0 ∧ win5_1.index t (0 : Fin 2) = 0 ∧ win5_1.index t (1 : Fin 2) = 0
    ∧ win5_2.index t (0 : Fin 2) = 0 ∧ win5_2.index t (1 : Fin 2) = 0
    ∧ win5_3.index t (1 : Fin 2) = 0 ∧ win5_3.index t (0 : Fin 2) = t.val :=
  (by decide +kernel : ∀ t : Fin grid5.N, _)

/-- What tile `t` writes back is the tile's rows of `affine` of the operand arrays as the product finds them. -/
theorem written (c : Dev nD) (t : Fin cfg5.N) :
    (dat5 V c).flushed 3 t = ((cfg5.win 3).blk t).view.read (Elt Ideal)
      (affine (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero origin]
  simp only [View.ld_unit_zero (S := S10000x128) origin, View.ld_unit_zero (S := S128x16) origin, View.ld_unit_zero (S := S1x16) origin]
  obtain ⟨e0, e1, e2, e3, e4, e5, e6, e7⟩ := tiles t
  funext j
  obtain ⟨p, q, rfl⟩ : ∃ (p : Fin 10000) (q : Fin 16), j = ix2 p q := ⟨j 0, j 1, eq_ix2 j⟩
  refine (stored_apply (iblk5 V c 0 t) (iblk5 V c 1 t) (iblk5 V c 2 t) p q).trans ?_
  have hx : ∀ k : Fin 128, iblk5 V c 0 t (ix2 p k)
      = V c (Pipeline.arrRef spec5 0) (ix2 ((((cfg5.win 3).blk t).view.emb (ix2 p q)) 0) k) := fun k => by
    show V c (Pipeline.arrRef spec5 0) (((cfg5.win 0).blk t).view.emb (ix2 p k)) = _
    refine congrArg _ (funext fun a => Fin.ext ?_)
    match a with
    | ⟨0, _⟩ => show win5_0.index t (0 : Fin 2) * 10000 + 1 * p.val = win5_3.index t (0 : Fin 2) * 10000 + 1 * p.val; omega
    | ⟨1, _⟩ => show win5_0.index t (1 : Fin 2) * 128 + 1 * k.val = k.val; omega
  have hw : ∀ k : Fin 128, iblk5 V c 1 t (ix2 k q)
      = V c (Pipeline.arrRef spec5 1) (ix2 k ((((cfg5.win 3).blk t).view.emb (ix2 p q)) 1)) := fun k => by
    show V c (Pipeline.arrRef spec5 1) (((cfg5.win 1).blk t).view.emb (ix2 k q)) = _
    refine congrArg _ (funext fun a => Fin.ext ?_)
    match a with
    | ⟨0, _⟩ => show win5_1.index t (0 : Fin 2) * 128 + 1 * k.val = k.val; omega
    | ⟨1, _⟩ => show win5_1.index t (1 : Fin 2) * 16 + 1 * q.val = win5_3.index t (1 : Fin 2) * 16 + 1 * q.val; omega
  have hb : iblk5 V c 2 t (ix2 0 q)
      = V c (Pipeline.arrRef spec5 2) (ix2 0 ((((cfg5.win 3).blk t).view.emb (ix2 p q)) 1)) := by
    show V c (Pipeline.arrRef spec5 2) (((cfg5.win 2).blk t).view.emb (ix2 0 q)) = _
    refine congrArg _ (funext fun a => Fin.ext ?_)
    match a with
    | ⟨0, _⟩ => show win5_2.index t (0 : Fin 2) * 1 + 1 * 0 = 0; omega
    | ⟨1, _⟩ => show win5_2.index t (1 : Fin 2) * 16 + 1 * q.val = win5_3.index t (1 : Fin 2) * 16 + 1 * q.val; omega
  rw [hb]
  simp only [hx, hw]
  rfl

/-- An index of the output array lies in tile `t` iff each coordinate lies in the tile's range on its axis. -/
theorem in_tile (t : Fin cfg5.N) (i : S100000x16.Idx) :
    i ∈ ((cfg5.win 3).blk t).view.set ↔ ∀ a : Fin 2, win5_3.index t a * S10000x16.size a ≤ (i a).val ∧ (i a).val < win5_3.index t a * S10000x16.size a + S10000x16.size a := by
  show i ∈ ((View.whole main_v145).slice (win5_3.rect t)).set ↔ _
  rw [View.set_slice_whole, Rect.mem_set_unit]
  exact Iff.rfl

/-- Every row of the output lies in the tile numbered by its row divided by 10000. -/
theorem covered (i : S100000x16.Idx) : ∃ t : Fin cfg5.N, (cfg5.win 3).flush t = true ∧ i ∈ ((cfg5.win 3).blk t).view.set := by
  have hi0 : (i 0).val < 100000 := (i 0).isLt
  have hi1 : (i 1).val < 16 := (i 1).isLt
  have hN : cfg5.N = 10 := N_5
  obtain ⟨t, ht⟩ : ∃ t : Fin cfg5.N, t.val = (i 0).val / 10000 := ⟨⟨(i 0).val / 10000, by rw [hN]; omega⟩, rfl⟩
  obtain ⟨e0, e1, e2, e3, e4, e5, e6, e7⟩ := tiles t
  refine ⟨t, flush5_3 t, ?_⟩
  rw [in_tile]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 16 ≤ (i 1).val ∧ (i 1).val < win5_3.index t (1 : Fin 2) * 16 + 16; omega

/-- The array the product leaves is `affine` of its operand arrays as it found them. -/
theorem array (c : Dev nD) :
    (dat5 V c).arrAt 3 cfg5.N
      = affine (V c (Pipeline.arrRef spec5 0)) (V c (Pipeline.arrRef spec5 1)) (V c (Pipeline.arrRef spec5 2)) :=
  (dat5 V c).arrAt_eq_of_cover 3 _ (fun t _ => written V c t) covered

end Cert.KernelIdeal.Product5

end
-- ==== Proof.Network.lean ====
/-
  The whole network as one function of the fifteen argument arrays, over the extended reals.

  Users (50000 rows of 64 features) and products (50000 rows of 100 features) are each mapped by an affine map to 128
  features and stacked into 100000 node rows.  Three times the node rows are multiplied by a 128 × 128 matrix and put
  through a round of normalised neighbourhood averaging (`Stage.round`, which adds that layer's bias); before the second
  and third multiplication, and before the last affine map to 16 outputs, the rows are clamped below at zero.
  Each multiplication is `affine` of a tiled product: rows times a matrix plus a bias row, with a row of zeros where the
  layer's bias is added only after the averaging.
-/
import proofs.«152641_j25168508355091_1_alg».proof.Proof.Gen.KernelIdeal
import proofs.«152641_j25168508355091_1_alg».proof.Proof.Gen.ReferenceIdeal
import proofs.«152641_j25168508355091_1_alg».proof.Proof.Stage
import proofs.«152641_j25168508355091_1_alg».proof.Proof.Product0
import proofs.«152641_j25168508355091_1_alg».proof.Proof.Product1
import proofs.«152641_j25168508355091_1_alg».proof.Proof.Product2
import proofs.«152641_j25168508355091_1_alg».proof.Proof.Product3
import proofs.«152641_j25168508355091_1_alg».proof.Proof.Product4
import proofs.«152641_j25168508355091_1_alg».proof.Proof.Product5

noncomputable section
namespace Cert.KernelIdeal.Network
open Cert.KernelIdeal Cert.KernelIdeal.Gen
open Idealize.ShloMosaic Idealize.ShloMosaic.TcCoe Idealize.SL.Sem Idealize.ShloMosaic.ValueIdx

variable {F : FTy → Type} [FloatOps F]

/-- The sources of the 600000 edges: row 0 of the edge array, flattened. -/
def src (a2 : (⟨S2x600000, .i32⟩ : BufTy).Contents (Elt F)) : (⟨S600000, .i32⟩ : BufTy).Contents (Elt F) :=
  shapeCast _ (extractStridedSlice S1x600000 ![0, 0] a2 slices_S2x600000_S1x600000_0_0) shapeCasts_S1x600000_S600000
/-- The targets of the edges: row 1 of the edge array, flattened. -/
def dst (a2 : (⟨S2x600000, .i32⟩ : BufTy).Contents (Elt F)) : (⟨S600000, .i32⟩ : BufTy).Contents (Elt F) :=
  shapeCast _ (extractStridedSlice S1x600000 ![1, 0] a2 slices_S2x600000_S1x600000_1_0) shapeCasts_S1x600000_S600000
/-- A bias vector of 128 entries as a 1 × 128 row. -/
def row128 (b : (⟨S128, .f32⟩ : BufTy).Contents (Elt F)) : (⟨S1x128, .f32⟩ : BufTy).Contents (Elt F) := shapeCast _ b shapeCasts_S128_S1x128
/-- A bias vector of 16 entries as a 1 × 16 row. -/
def row16 (b : (⟨S16, .f32⟩ : BufTy).Contents (Elt F)) : (⟨S1x16, .f32⟩ : BufTy).Contents (Elt F) := shapeCast _ b shapeCasts_S16_S1x16
/-- The 1 × 128 row of zeros the kernel passes where a product has no bias. -/
def zeroRow : (⟨S1x128, .f32⟩ : BufTy).Contents (Elt F) :=
  shapeCast _ (broadcastInDim S128 ![] bcast_S_S128 (constant S_ .f32 0x00000000#32)) shapeCasts_S128_S1x128
/-- Two blocks of 50000 rows stacked into 100000 rows. -/
def stacked (u p : (⟨S50000x128, .f32⟩ : BufTy).Contents (Elt F)) : (⟨S100000x128, .f32⟩ : BufTy).Contents (Elt F) :=
  concatenate S100000x128 0 [⟨S50000x128, u⟩, ⟨S50000x128, p⟩] concatenates_S50000x128_S50000x128_S100000x128_d0

/-- The row form of a 128-vector, at an entry. -/
theorem row128_apply (b : (⟨S128, .f32⟩ : BufTy).Contents (Elt Ideal)) (q : Fin 128) : row128 (F := Ideal) b (ix2 0 q) = b (ix1 q) := by
  unfold row128
  refine (shapeCast_addUnit_apply ![128] b shapeCasts_S128_S1x128 (ix2 0 q)).trans (congrArg b (funext fun a => ?_))
  match a with
  | ⟨0, _⟩ => rfl

/-- The row form of a 16-vector, at an entry. -/
theorem row16_apply (b : (⟨S16, .f32⟩ : BufTy).Contents (Elt Ideal)) (q : Fin 16) : row16 (F := Ideal) b (ix2 0 q) = b (ix1 q) := by
  unfold row16
  refine (shapeCast_addUnit_apply ![16] b shapeCasts_S16_S1x16 (ix2 0 q)).trans (congrArg b (funext fun a => ?_))
  match a with
  | ⟨0, _⟩ => rfl

/-- Every entry of the row of zeros is the real number zero. -/
theorem zeroRow_apply (q : Fin 128) : zeroRow (F := Ideal) (ix2 0 q) = 0 := by
  unfold zeroRow
  refine (shapeCast_addUnit_apply ![128] _ shapeCasts_S128_S1x128 (ix2 0 q)).trans ?_
  exact Ideal.ofBits_zero_f32

/-- The network's 100000 × 16 result from the fifteen argument arrays. -/
def whole (a0 : (⟨S50000x64, .f32⟩ : BufTy).Contents (Elt Ideal)) (a1 : (⟨S50000x100, .f32⟩ : BufTy).Contents (Elt Ideal)) (a2 : (⟨S2x600000, .i32⟩ : BufTy).Contents (Elt Ideal))
    (a3 : (⟨S64x128, .f32⟩ : BufTy).Contents (Elt Ideal)) (a4 : (⟨S128, .f32⟩ : BufTy).Contents (Elt Ideal)) (a5 : (⟨S100x128, .f32⟩ : BufTy).Contents (Elt Ideal)) (a6 : (⟨S128, .f32⟩ : BufTy).Contents (Elt Ideal))
    (a7 : (⟨S128x128, .f32⟩ : BufTy).Contents (Elt Ideal)) (a8 : (⟨S128, .f32⟩ : BufTy).Contents (Elt Ideal)) (a9 : (⟨S128x128, .f32⟩ : BufTy).Contents (Elt Ideal)) (a10 : (⟨S128, .f32⟩ : BufTy).Contents (Elt Ideal))
    (a11 : (⟨S128x128, .f32⟩ : BufTy).Contents (Elt Ideal)) (a12 : (⟨S128, .f32⟩ : BufTy).Contents (Elt Ideal)) (a13 : (⟨S128x16, .f32⟩ : BufTy).Contents (Elt Ideal)) (a14 : (⟨S16, .f32⟩ : BufTy).Contents (Elt Ideal)) :
    (⟨S100000x16, .f32⟩ : BufTy).Contents (Elt Ideal) :=
  Product5.affine
    (Cert.ReferenceIdeal.Stage.round (F := Ideal)
      (Product4.affine
        (Cert.ReferenceIdeal.Stage.round (F := Ideal)
          (Product3.affine
            (Cert.ReferenceIdeal.Stage.round (F := Ideal)
              (Product2.affine (stacked (F := Ideal) (Product0.affine a0 a3 (row128 a4)) (Product1.affine a1 a5 (row128 a6))) a7 (zeroRow (F := Ideal)))
              (src a2) (dst a2) a8)
            a9 (zeroRow (F := Ideal)))
          (src a2) (dst a2) a10)
        a11 (zeroRow (F := Ideal)))
      (src a2) (dst a2) a12)
    a13 (row16 a14)

end Cert.KernelIdeal.Network
end
-- ==== Proof.Kept.lean ====
/-
  Which buffers survive which segment of the idealized kernel's run.

  The program's buffers split in two: the fifteen argument arrays and the two halves of the edge list (sources and
  targets, cut out of the edge array by the first stretch of host operations), which nothing later writes; and all the
  others, each written by exactly one later host operation or tiled product.  A buffer of the first kind holds the same
  contents at every segment boundary after the first stretch: a stretch of host operations changes only what its
  operations write, and a tiled product changes only its output array.
-/
import proofs.«152641_j25168508355091_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The buffers the first stretch writes: the two rows of the edge array, each then flattened, and the first bias row. -/
abbrev early : List (Ref sig .tc) := [main_v0, main_v1, main_v2, main_v3, main_v4]

/-- Every buffer that some later host operation or some tiled product writes. -/
abbrev later : List (Ref sig .tc) := [main_v0, main_v2, main_v4, main_v6, main_v5, main_v7, main_v8, main_cst, main_v9, main_v10, main_v12, main_v13, main_v14, main_cst_0, main_v15, main_cst_1, main_v16, main_v17, main_v18, main_cst_2, main_v19, main_v20, main_v21, main_cst_3, main_call0_v0, main_call0_v1, main_v22, main_c, main_v23, main_v24, main_c_4, main_v25, main_v26, main_v27, main_v28, main_v29, main_c_5, main_v30, main_v31, main_c_6, main_v32, main_v33, main_v34, main_v35, main_v36, main_v37, main_c_7, main_v38, main_v39, main_c_8, main_v40, main_v41, main_v42, main_v43, main_v11, main_v44, main_v45, main_v46, main_v47, main_cst_9, main_v48, main_v49, main_v50, main_v51, main_v52, main_v53, main_cst_10, main_v54, main_v55, main_v57, main_v58, main_v59, main_cst_11, main_v60, main_cst_12, main_v61, main_v62, main_v63, main_cst_13, main_v64, main_v65, main_v66, main_cst_14, main_call1_v0, main_call1_v1, main_v67, main_c_15, main_v68, main_v69, main_c_16, main_v70, main_v71, main_v72, main_v73, main_v74, main_c_17, main_v75, main_v76, main_c_18, main_v77, main_v78, main_v79, main_v80, main_v81, main_v82, main_c_19, main_v83, main_v84, main_c_20, main_v85, main_v86, main_v87, main_v88, main_v56, main_v89, main_v90, main_v91, main_v92, main_cst_21, main_v93, main_v94, main_v95, main_v96, main_v97, main_v98, main_cst_22, main_v99, main_v100, main_v102, main_v103, main_v104, main_cst_23, main_v105, main_cst_24, main_v106, main_v107, main_v108, main_cst_25, main_v109, main_v110, main_v111, main_cst_26, main_call2_v0, main_call2_v1, main_v112, main_c_27, main_v113, main_v114, main_c_28, main_v115, main_v116, main_v117, main_v118, main_v119, main_c_29, main_v120, main_v121, main_c_30, main_v122, main_v123, main_v124, main_v125, main_v126, main_v127, main_c_31, main_v128, main_v129, main_c_32, main_v130, main_v131, main_v132, main_v133, main_v101, main_v134, main_v135, main_v136, main_v137, main_cst_33, main_v138, main_v139, main_v140, main_v141, main_v142, main_v143, main_v144, main_v145]

theorem writes_0 : (hostOps0 : List (HloOp τ sig (Elt F))).Forall fun op => op.writes ⊆ (early.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

theorem writes_1 : (hostOps1 : List (HloOp τ sig (Elt F))).Forall fun op => op.writes ⊆ (later.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

theorem writes_2 : (hostOps2 : List (HloOp τ sig (Elt F))).Forall fun op => op.writes ⊆ (later.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

theorem writes_3 : (hostOps3 : List (HloOp τ sig (Elt F))).Forall fun op => op.writes ⊆ (later.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

theorem writes_3_1 : (hostOps3_1 : List (HloOp τ sig (Elt F))).Forall fun op => op.writes ⊆ (later.map (Proc.devRef (τ := τ) .tc)).toFinset := by
  simp only [hostOps3_1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

theorem writes_3_2 : (hostOps3_2 : List (HloOp τ sig (Elt F))).Forall fun op => op.writes ⊆ (later.map (Proc.devRef (τ := τ) .tc)).toFinset := by
  simp only [hostOps3_2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

theorem writes_4 : (hostOps4 : List (HloOp τ sig (Elt F))).Forall fun op => op.writes ⊆ (later.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

theorem writes_4_1 : (hostOps4_1 : List (HloOp τ sig (Elt F))).Forall fun op => op.writes ⊆ (later.map (Proc.devRef (τ := τ) .tc)).toFinset := by
  simp only [hostOps4_1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

theorem writes_4_2 : (hostOps4_2 : List (HloOp τ sig (Elt F))).Forall fun op => op.writes ⊆ (later.map (Proc.devRef (τ := τ) .tc)).toFinset := by
  simp only [hostOps4_2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

theorem writes_5 : (hostOps5 : List (HloOp τ sig (Elt F))).Forall fun op => op.writes ⊆ (later.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

theorem writes_5_1 : (hostOps5_1 : List (HloOp τ sig (Elt F))).Forall fun op => op.writes ⊆ (later.map (Proc.devRef (τ := τ) .tc)).toFinset := by
  simp only [hostOps5_1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

theorem writes_5_2 : (hostOps5_2 : List (HloOp τ sig (Elt F))).Forall fun op => op.writes ⊆ (later.map (Proc.devRef (τ := τ) .tc)).toFinset := by
  simp only [hostOps5_2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

/-! ## One segment at a time -/

theorem step_2 (c : Dev nD) (r : Ref sig .tc) (h : r ∉ later) :
    W2 m ρ c (Proc.devRef .tc r) = W1 m ρ c (Proc.devRef .tc r) := by
  have h3 : r ≠ main_v5 := fun e => h (by rw [e]; decide)
  by_cases h0 : r = main_arg0
  · subst h0; exact (W2_arr m ρ c 0).trans (((dat0 (V1 m ρ) c).arrAt_in 0 rfl _).trans (A_eq0 (V1 m ρ) c 0))
  by_cases h1 : r = main_arg3
  · subst h1; exact (W2_arr m ρ c 1).trans (((dat0 (V1 m ρ) c).arrAt_in 1 rfl _).trans (A_eq0 (V1 m ρ) c 1))
  have h2 : r ≠ main_v4 := fun e => h (by rw [e]; decide)
  refine W2_of_ne m ρ c r fun w => ?_
  match w with
  | ⟨0, _⟩ => exact Ne.symm h0
  | ⟨1, _⟩ => exact Ne.symm h1
  | ⟨2, _⟩ => exact Ne.symm h2
  | ⟨3, _⟩ => exact Ne.symm h3

theorem step_3 (c : Dev nD) (r : Ref sig .tc) (h : r ∉ later) :
    W3 m ρ c (Proc.devRef .tc r) = W2 m ρ c (Proc.devRef .tc r) :=
  StableHlo.after_of_writes_sub hostOps1 _ writes_1 h

theorem step_4 (c : Dev nD) (r : Ref sig .tc) (h : r ∉ later) :
    W4 m ρ c (Proc.devRef .tc r) = W3 m ρ c (Proc.devRef .tc r) := by
  have h3 : r ≠ main_v7 := fun e => h (by rw [e]; decide)
  by_cases h0 : r = main_arg1
  · subst h0; exact (W4_arr m ρ c 0).trans (((dat1 (V3 m ρ) c).arrAt_in 0 rfl _).trans (A_eq1 (V3 m ρ) c 0))
  by_cases h1 : r = main_arg5
  · subst h1; exact (W4_arr m ρ c 1).trans (((dat1 (V3 m ρ) c).arrAt_in 1 rfl _).trans (A_eq1 (V3 m ρ) c 1))
  have h2 : r ≠ main_v6 := fun e => h (by rw [e]; decide)
  refine W4_of_ne m ρ c r fun w => ?_
  match w with
  | ⟨0, _⟩ => exact Ne.symm h0
  | ⟨1, _⟩ => exact Ne.symm h1
  | ⟨2, _⟩ => exact Ne.symm h2
  | ⟨3, _⟩ => exact Ne.symm h3

theorem step_5 (c : Dev nD) (r : Ref sig .tc) (h : r ∉ later) :
    W5 m ρ c (Proc.devRef .tc r) = W4 m ρ c (Proc.devRef .tc r) :=
  StableHlo.after_of_writes_sub hostOps2 _ writes_2 h

theorem step_6 (c : Dev nD) (r : Ref sig .tc) (h : r ∉ later) :
    W6 m ρ c (Proc.devRef .tc r) = W5 m ρ c (Proc.devRef .tc r) := by
  have h3 : r ≠ main_v11 := fun e => h (by rw [e]; decide)
  have h0 : r ≠ main_v8 := fun e => h (by rw [e]; decide)
  by_cases h1 : r = main_arg7
  · subst h1; exact (W6_arr m ρ c 1).trans (((dat2 (V5 m ρ) c).arrAt_in 1 rfl _).trans (A_eq2 (V5 m ρ) c 1))
  have h2 : r ≠ main_v10 := fun e => h (by rw [e]; decide)
  refine W6_of_ne m ρ c r fun w => ?_
  match w with
  | ⟨0, _⟩ => exact Ne.symm h0
  | ⟨1, _⟩ => exact Ne.symm h1
  | ⟨2, _⟩ => exact Ne.symm h2
  | ⟨3, _⟩ => exact Ne.symm h3

theorem step_7 (c : Dev nD) (r : Ref sig .tc) (h : r ∉ later) :
    W7 m ρ c (Proc.devRef .tc r) = W6 m ρ c (Proc.devRef .tc r) :=
  StableHlo.after_of_writes_sub hostOps3 _ writes_3 h

theorem step_8 (c : Dev nD) (r : Ref sig .tc) (h : r ∉ later) :
    W8 m ρ c (Proc.devRef .tc r) = W7 m ρ c (Proc.devRef .tc r) :=
  StableHlo.after_of_writes_sub hostOps3_1 _ writes_3_1 h

theorem step_9 (c : Dev nD) (r : Ref sig .tc) (h : r ∉ later) :
    W9 m ρ c (Proc.devRef .tc r) = W8 m ρ c (Proc.devRef .tc r) :=
  StableHlo.after_of_writes_sub hostOps3_2 _ writes_3_2 h

theorem step_10 (c : Dev nD) (r : Ref sig .tc) (h : r ∉ later) :
    W10 m ρ c (Proc.devRef .tc r) = W9 m ρ c (Proc.devRef .tc r) := by
  have h3 : r ≠ main_v56 := fun e => h (by rw [e]; decide)
  have h0 : r ≠ main_v53 := fun e => h (by rw [e]; decide)
  by_cases h1 : r = main_arg9
  · subst h1; exact (W10_arr m ρ c 1).trans (((dat3 (V9 m ρ) c).arrAt_in 1 rfl _).trans (A_eq3 (V9 m ρ) c 1))
  have h2 : r ≠ main_v55 := fun e => h (by rw [e]; decide)
  refine W10_of_ne m ρ c r fun w => ?_
  match w with
  | ⟨0, _⟩ => exact Ne.symm h0
  | ⟨1, _⟩ => exact Ne.symm h1
  | ⟨2, _⟩ => exact Ne.symm h2
  | ⟨3, _⟩ => exact Ne.symm h3

theorem step_11 (c : Dev nD) (r : Ref sig .tc) (h : r ∉ later) :
    W11 m ρ c (Proc.devRef .tc r) = W10 m ρ c (Proc.devRef .tc r) :=
  StableHlo.after_of_writes_sub hostOps4 _ writes_4 h

theorem step_12 (c : Dev nD) (r : Ref sig .tc) (h : r ∉ later) :
    W12 m ρ c (Proc.devRef .tc r) = W11 m ρ c (Proc.devRef .tc r) :=
  StableHlo.after_of_writes_sub hostOps4_1 _ writes_4_1 h

theorem step_13 (c : Dev nD) (r : Ref sig .tc) (h : r ∉ later) :
    W13 m ρ c (Proc.devRef .tc r) = W12 m ρ c (Proc.devRef .tc r) :=
  StableHlo.after_of_writes_sub hostOps4_2 _ writes_4_2 h

theorem step_14 (c : Dev nD) (r : Ref sig .tc) (h : r ∉ later) :
    W14 m ρ c (Proc.devRef .tc r) = W13 m ρ c (Proc.devRef .tc r) := by
  have h3 : r ≠ main_v101 := fun e => h (by rw [e]; decide)
  have h0 : r ≠ main_v98 := fun e => h (by rw [e]; decide)
  by_cases h1 : r = main_arg11
  · subst h1; exact (W14_arr m ρ c 1).trans (((dat4 (V13 m ρ) c).arrAt_in 1 rfl _).trans (A_eq4 (V13 m ρ) c 1))
  have h2 : r ≠ main_v100 := fun e => h (by rw [e]; decide)
  refine W14_of_ne m ρ c r fun w => ?_
  match w with
  | ⟨0, _⟩ => exact Ne.symm h0
  | ⟨1, _⟩ => exact Ne.symm h1
  | ⟨2, _⟩ => exact Ne.symm h2
  | ⟨3, _⟩ => exact Ne.symm h3

theorem step_15 (c : Dev nD) (r : Ref sig .tc) (h : r ∉ later) :
    W15 m ρ c (Proc.devRef .tc r) = W14 m ρ c (Proc.devRef .tc r) :=
  StableHlo.after_of_writes_sub hostOps5 _ writes_5 h

theorem step_16 (c : Dev nD) (r : Ref sig .tc) (h : r ∉ later) :
    W16 m ρ c (Proc.devRef .tc r) = W15 m ρ c (Proc.devRef .tc r) :=
  StableHlo.after_of_writes_sub hostOps5_1 _ writes_5_1 h

theorem step_17 (c : Dev nD) (r : Ref sig .tc) (h : r ∉ later) :
    W17 m ρ c (Proc.devRef .tc r) = W16 m ρ c (Proc.devRef .tc r) :=
  StableHlo.after_of_writes_sub hostOps5_2 _ writes_5_2 h

theorem step_18 (c : Dev nD) (r : Ref sig .tc) (h : r ∉ later) :
    W18 m ρ c (Proc.devRef .tc r) = W17 m ρ c (Proc.devRef .tc r) := by
  have h3 : r ≠ main_v145 := fun e => h (by rw [e]; decide)
  have h0 : r ≠ main_v143 := fun e => h (by rw [e]; decide)
  by_cases h1 : r = main_arg13
  · subst h1; exact (W18_arr m ρ c 1).trans (((dat5 (V17 m ρ) c).arrAt_in 1 rfl _).trans (A_eq5 (V17 m ρ) c 1))
  have h2 : r ≠ main_v144 := fun e => h (by rw [e]; decide)
  refine W18_of_ne m ρ c r fun w => ?_
  match w with
  | ⟨0, _⟩ => exact Ne.symm h0
  | ⟨1, _⟩ => exact Ne.symm h1
  | ⟨2, _⟩ => exact Ne.symm h2
  | ⟨3, _⟩ => exact Ne.symm h3

/-! ## From any boundary back to the end of the first stretch -/

theorem back_2 (c : Dev nD) (r : Ref sig .tc) (h : r ∉ later) :
    W2 m ρ c (Proc.devRef .tc r) = W1 m ρ c (Proc.devRef .tc r) := step_2 m ρ c r h
theorem back_3 (c : Dev nD) (r : Ref sig .tc) (h : r ∉ later) :
    W3 m ρ c (Proc.devRef .tc r) = W1 m ρ c (Proc.devRef .tc r) := (step_3 m ρ c r h).trans (back_2 m ρ c r h)
theorem back_4 (c : Dev nD) (r : Ref sig .tc) (h : r ∉ later) :
    W4 m ρ c (Proc.devRef .tc r) = W1 m ρ c (Proc.devRef .tc r) := (step_4 m ρ c r h).trans (back_3 m ρ c r h)
theorem back_5 (c : Dev nD) (r : Ref sig .tc) (h : r ∉ later) :
    W5 m ρ c (Proc.devRef .tc r) = W1 m ρ c (Proc.devRef .tc r) := (step_5 m ρ c r h).trans (back_4 m ρ c r h)
theorem back_6 (c : Dev nD) (r : Ref sig .tc) (h : r ∉ later) :
    W6 m ρ c (Proc.devRef .tc r) = W1 m ρ c (Proc.devRef .tc r) := (step_6 m ρ c r h).trans (back_5 m ρ c r h)
theorem back_7 (c : Dev nD) (r : Ref sig .tc) (h : r ∉ later) :
    W7 m ρ c (Proc.devRef .tc r) = W1 m ρ c (Proc.devRef .tc r) := (step_7 m ρ c r h).trans (back_6 m ρ c r h)
theorem back_8 (c : Dev nD) (r : Ref sig .tc) (h : r ∉ later) :
    W8 m ρ c (Proc.devRef .tc r) = W1 m ρ c (Proc.devRef .tc r) := (step_8 m ρ c r h).trans (back_7 m ρ c r h)
theorem back_9 (c : Dev nD) (r : Ref sig .tc) (h : r ∉ later) :
    W9 m ρ c (Proc.devRef .tc r) = W1 m ρ c (Proc.devRef .tc r) := (step_9 m ρ c r h).trans (back_8 m ρ c r h)
theorem back_10 (c : Dev nD) (r : Ref sig .tc) (h : r ∉ later) :
    W10 m ρ c (Proc.devRef .tc r) = W1 m ρ c (Proc.devRef .tc r) := (step_10 m ρ c r h).trans (back_9 m ρ c r h)
theorem back_11 (c : Dev nD) (r : Ref sig .tc) (h : r ∉ later) :
    W11 m ρ c (Proc.devRef .tc r) = W1 m ρ c (Proc.devRef .tc r) := (step_11 m ρ c r h).trans (back_10 m ρ c r h)
theorem back_12 (c : Dev nD) (r : Ref sig .tc) (h : r ∉ later) :
    W12 m ρ c (Proc.devRef .tc r) = W1 m ρ c (Proc.devRef .tc r) := (step_12 m ρ c r h).trans (back_11 m ρ c r h)
theorem back_13 (c : Dev nD) (r : Ref sig .tc) (h : r ∉ later) :
    W13 m ρ c (Proc.devRef .tc r) = W1 m ρ c (Proc.devRef .tc r) := (step_13 m ρ c r h).trans (back_12 m ρ c r h)
theorem back_14 (c : Dev nD) (r : Ref sig .tc) (h : r ∉ later) :
    W14 m ρ c (Proc.devRef .tc r) = W1 m ρ c (Proc.devRef .tc r) := (step_14 m ρ c r h).trans (back_13 m ρ c r h)
theorem back_15 (c : Dev nD) (r : Ref sig .tc) (h : r ∉ later) :
    W15 m ρ c (Proc.devRef .tc r) = W1 m ρ c (Proc.devRef .tc r) := (step_15 m ρ c r h).trans (back_14 m ρ c r h)
theorem back_16 (c : Dev nD) (r : Ref sig .tc) (h : r ∉ later) :
    W16 m ρ c (Proc.devRef .tc r) = W1 m ρ c (Proc.devRef .tc r) := (step_16 m ρ c r h).trans (back_15 m ρ c r h)
theorem back_17 (c : Dev nD) (r : Ref sig .tc) (h : r ∉ later) :
    W17 m ρ c (Proc.devRef .tc r) = W1 m ρ c (Proc.devRef .tc r) := (step_17 m ρ c r h).trans (back_16 m ρ c r h)
theorem back_18 (c : Dev nD) (r : Ref sig .tc) (h : r ∉ later) :
    W18 m ρ c (Proc.devRef .tc r) = W1 m ρ c (Proc.devRef .tc r) := (step_18 m ρ c r h).trans (back_17 m ρ c r h)

/-- An argument array is untouched by the first stretch too: at its end it holds its launch contents. -/
theorem at_1 (c : Dev nD) (r : Ref sig .tc) (h : r ∉ early) :
    W1 m ρ c (Proc.devRef .tc r) = W0 m ρ c (Proc.devRef .tc r) :=
  StableHlo.after_of_writes_sub hostOps0 _ writes_0 h

end Cert.KernelIdeal.Kept

end
-- ==== Proof.Round1.lean ====
/-
  Round 1 of neighbourhood averaging inside the idealized kernel: the three stretches of host operations between two
  tiled products compute, from the rows the earlier product left, the two halves of the edge list and a bias row, exactly
  the round of `Stage.round`; nothing else they write is read later.
-/
import proofs.«152641_j25168508355091_1_alg».proof.Proof.Gen.KernelIdeal.Frame
import proofs.«152641_j25168508355091_1_alg».proof.Proof.Gen.ReferenceIdeal
import proofs.«152641_j25168508355091_1_alg».proof.Proof.Stage

noncomputable section
namespace Cert.KernelIdeal.Round1
open Cert.KernelIdeal Cert.KernelIdeal.Gen
open Idealize.ShloMosaic Idealize.ShloMosaic.TcCoe Idealize.SL.Sem Idealize.ShloMosaic.StableHlo
variable {F : FTy → Type} [FloatOps F]
variable (m : (ℓ : Loc nD τ sig) → Buf (Elt F) ℓ) (ρ : Dev nD → PrngReg)

set_option maxRecDepth 16384 in
/-- After the three stretches the rows are one round applied to the rows, edge halves and bias row held before them. -/
theorem rows (c : Dev nD) :
    W9 m ρ c (Proc.devRef .tc main_v53)
      = Cert.ReferenceIdeal.Stage.round (F := F) (W6 m ρ c (Proc.devRef .tc main_v11)) (W6 m ρ c (Proc.devRef .tc main_v1))
          (W6 m ρ c (Proc.devRef .tc main_v3)) (W6 m ρ c (Proc.devRef .tc main_arg8)) := by
  show StableHlo.after hostOps3_2 (StableHlo.after hostOps3_1 (StableHlo.after hostOps3 (W6 m ρ c))) (Proc.devRef .tc main_v53) = _
  generalize W6 m ρ c = V
  dsimp only [hostOps3_2, hostOps3_1, hostOps3]
  after_results_simp
  rfl

end Cert.KernelIdeal.Round1
end
-- ==== Proof.Round2.lean ====
/-
  Round 2 of neighbourhood averaging inside the idealized kernel: the three stretches of host operations between two
  tiled products compute, from the rows the earlier product left, the two halves of the edge list and a bias row, exactly
  the round of `Stage.round`; nothing else they write is read later.
-/
import proofs.«152641_j25168508355091_1_alg».proof.Proof.Gen.KernelIdeal.Frame
import proofs.«152641_j25168508355091_1_alg».proof.Proof.Gen.ReferenceIdeal
import proofs.«152641_j25168508355091_1_alg».proof.Proof.Stage

noncomputable section
namespace Cert.KernelIdeal.Round2
open Cert.KernelIdeal Cert.KernelIdeal.Gen
open Idealize.ShloMosaic Idealize.ShloMosaic.TcCoe Idealize.SL.Sem Idealize.ShloMosaic.StableHlo
variable {F : FTy → Type} [FloatOps F]
variable (m : (ℓ : Loc nD τ sig) → Buf (Elt F) ℓ) (ρ : Dev nD → PrngReg)

set_option maxRecDepth 16384 in
/-- After the three stretches the rows are one round applied to the rows, edge halves and bias row held before them. -/
theorem rows (c : Dev nD) :
    W13 m ρ c (Proc.devRef .tc main_v98)
      = Cert.ReferenceIdeal.Stage.round (F := F) (W10 m ρ c (Proc.devRef .tc main_v56)) (W10 m ρ c (Proc.devRef .tc main_v1))
          (W10 m ρ c (Proc.devRef .tc main_v3)) (W10 m ρ c (Proc.devRef .tc main_arg10)) := by
  show StableHlo.after hostOps4_2 (StableHlo.after hostOps4_1 (StableHlo.after hostOps4 (W10 m ρ c))) (Proc.devRef .tc main_v98) = _
  generalize W10 m ρ c = V
  dsimp only [hostOps4_2, hostOps4_1, hostOps4]
  after_results_simp
  rfl

end Cert.KernelIdeal.Round2
end
-- ==== Proof.Round3.lean ====
/-
  Round 3 of neighbourhood averaging inside the idealized kernel: the three stretches of host operations between two
  tiled products compute, from the rows the earlier product left, the two halves of the edge list and a bias row, exactly
  the round of `Stage.round`; nothing else they write is read later.
-/
import proofs.«152641_j25168508355091_1_alg».proof.Proof.Gen.KernelIdeal.Frame
import proofs.«152641_j25168508355091_1_alg».proof.Proof.Gen.ReferenceIdeal
import proofs.«152641_j25168508355091_1_alg».proof.Proof.Stage

noncomputable section
namespace Cert.KernelIdeal.Round3
open Cert.KernelIdeal Cert.KernelIdeal.Gen
open Idealize.ShloMosaic Idealize.ShloMosaic.TcCoe Idealize.SL.Sem Idealize.ShloMosaic.StableHlo
variable {F : FTy → Type} [FloatOps F]
variable (m : (ℓ : Loc nD τ sig) → Buf (Elt F) ℓ) (ρ : Dev nD → PrngReg)

set_option maxRecDepth 16384 in
/-- After the three stretches the rows are one round applied to the rows, edge halves and bias row held before them. -/
theorem rows (c : Dev nD) :
    W17 m ρ c (Proc.devRef .tc main_v143)
      = Cert.ReferenceIdeal.Stage.round (F := F) (W14 m ρ c (Proc.devRef .tc main_v101)) (W14 m ρ c (Proc.devRef .tc main_v1))
          (W14 m ρ c (Proc.devRef .tc main_v3)) (W14 m ρ c (Proc.devRef .tc main_arg12)) := by
  show StableHlo.after hostOps5_2 (StableHlo.after hostOps5_1 (StableHlo.after hostOps5 (W14 m ρ c))) (Proc.devRef .tc main_v143) = _
  generalize W14 m ρ c = V
  dsimp only [hostOps5_2, hostOps5_1, hostOps5]
  after_results_simp
  rfl

end Cert.KernelIdeal.Round3
end
-- ==== Proof.KernelRun.lean ====
/-
  The idealized kernel's whole run with its RESULT named.  The program is six tiled matrix products among stretches of
  host operations; its run is the chain of those eighteen segments from the launch memory.  The buffer contents at the
  last boundary are a fold over the segments: every host stretch applies its operations, every tiled product replaces its
  output array by what its grid points write back and leaves every other buffer alone.  Here the final state is read at
  the result buffer as well as at the arguments: the result array holds the last boundary's contents at that buffer.
-/
import proofs.«152641_j25168508355091_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    segment boundary's contents at that buffer, and every argument array is as launched. -/
theorem run_result : θ_run defs (onTc (τ := τ) (main (F := F))) ⟨m, fun _ => 0, ρ⟩ (fun r => ∀ c : Dev nD,
      r.2.mem ((c.tc : Thread nD τ).loc main_v145) = W18 m ρ c (Proc.devRef .tc main_v145)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v145 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c)⟩)

end Cert.KernelIdeal.Whole

end
-- ==== Proof.KernelValue.lean ====
/-
  What the idealized kernel computes: its result array is `Network.whole` of the fifteen argument arrays.

  The run's last boundary contents are read back segment by segment.  A tiled product's output array is `affine` of the
  three arrays it was given; a stretch of host operations is read operation by operation; the three long stretches are
  one round of averaging each; argument arrays and the two halves of the edge list are the same at every boundary.
-/
import proofs.«152641_j25168508355091_1_alg».proof.Proof.Network
import proofs.«152641_j25168508355091_1_alg».proof.Proof.Kept
import proofs.«152641_j25168508355091_1_alg».proof.Proof.Round1
import proofs.«152641_j25168508355091_1_alg».proof.Proof.Round2
import proofs.«152641_j25168508355091_1_alg».proof.Proof.Round3
import proofs.«152641_j25168508355091_1_alg».proof.Proof.KernelRun

set_option maxRecDepth 16384

noncomputable section
namespace Cert.KernelIdeal.Whole
open Cert.KernelIdeal Cert.KernelIdeal.Gen Cert.KernelIdeal.Network
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first stretch: the edge list cut in two, the first bias as a row -/

theorem src_1 : W1 m ρ c (Proc.devRef .tc main_v1) = src (m ((c : Thread nD τ).loc main_arg2)) := by
  show StableHlo.after hostOps0 (W0 m ρ c) (Proc.devRef .tc main_v1) = src (W0 m ρ c (Proc.devRef .tc main_arg2))
  generalize W0 m ρ c = V
  dsimp only [hostOps0]
  after_results
  rfl
theorem dst_1 : W1 m ρ c (Proc.devRef .tc main_v3) = dst (m ((c : Thread nD τ).loc main_arg2)) := by
  show StableHlo.after hostOps0 (W0 m ρ c) (Proc.devRef .tc main_v3) = dst (W0 m ρ c (Proc.devRef .tc main_arg2))
  generalize W0 m ρ c = V
  dsimp only [hostOps0]
  after_results
  rfl
theorem bias_1 : W1 m ρ c (Proc.devRef .tc main_v4) = row128 (m ((c : Thread nD τ).loc main_arg4)) := by
  show StableHlo.after hostOps0 (W0 m ρ c) (Proc.devRef .tc main_v4) = row128 (W0 m ρ c (Proc.devRef .tc main_arg4))
  generalize W0 m ρ c = V
  dsimp only [hostOps0]
  after_results
  rfl

/-! ## Arguments and edge halves at the boundaries where they are read -/

theorem arg0_at1 : W1 m ρ c (Proc.devRef .tc main_arg0) = m ((c : Thread nD τ).loc main_arg0) :=
  (Kept.at_1 m ρ c main_arg0 (by decide)).trans rfl
theorem arg3_at1 : W1 m ρ c (Proc.devRef .tc main_arg3) = m ((c : Thread nD τ).loc main_arg3) :=
  (Kept.at_1 m ρ c main_arg3 (by decide)).trans rfl
theorem arg6_at2 : W2 m ρ c (Proc.devRef .tc main_arg6) = m ((c : Thread nD τ).loc main_arg6) :=
  (Kept.back_2 m ρ c main_arg6 (by decide)).trans ((Kept.at_1 m ρ c main_arg6 (by decide)).trans rfl)
theorem arg1_at3 : W3 m ρ c (Proc.devRef .tc main_arg1) = m ((c : Thread nD τ).loc main_arg1) :=
  (Kept.back_3 m ρ c main_arg1 (by decide)).trans ((Kept.at_1 m ρ c main_arg1 (by decide)).trans rfl)
theorem arg5_at3 : W3 m ρ c (Proc.devRef .tc main_arg5) = m ((c : Thread nD τ).loc main_arg5) :=
  (Kept.back_3 m ρ c main_arg5 (by decide)).trans ((Kept.at_1 m ρ c main_arg5 (by decide)).trans rfl)
theorem arg7_at5 : W5 m ρ c (Proc.devRef .tc main_arg7) = m ((c : Thread nD τ).loc main_arg7) :=
  (Kept.back_5 m ρ c main_arg7 (by decide)).trans ((Kept.at_1 m ρ c main_arg7 (by decide)).trans rfl)
theorem arg8_at6 : W6 m ρ c (Proc.devRef .tc main_arg8) = m ((c : Thread nD τ).loc main_arg8) :=
  (Kept.back_6 m ρ c main_arg8 (by decide)).trans ((Kept.at_1 m ρ c main_arg8 (by decide)).trans rfl)
theorem arg9_at9 : W9 m ρ c (Proc.devRef .tc main_arg9) = m ((c : Thread nD τ).loc main_arg9) :=
  (Kept.back_9 m ρ c main_arg9 (by decide)).trans ((Kept.at_1 m ρ c main_arg9 (by decide)).trans rfl)
theorem arg10_at10 : W10 m ρ c (Proc.devRef .tc main_arg10) = m ((c : Thread nD τ).loc main_arg10) :=
  (Kept.back_10 m ρ c main_arg10 (by decide)).trans ((Kept.at_1 m ρ c main_arg10 (by decide)).trans rfl)
theorem arg11_at13 : W13 m ρ c (Proc.devRef .tc main_arg11) = m ((c : Thread nD τ).loc main_arg11) :=
  (Kept.back_13 m ρ c main_arg11 (by decide)).trans ((Kept.at_1 m ρ c main_arg11 (by decide)).trans rfl)
theorem arg12_at14 : W14 m ρ c (Proc.devRef .tc main_arg12) = m ((c : Thread nD τ).loc main_arg12) :=
  (Kept.back_14 m ρ c main_arg12 (by decide)).trans ((Kept.at_1 m ρ c main_arg12 (by decide)).trans rfl)
theorem arg14_at14 : W14 m ρ c (Proc.devRef .tc main_arg14) = m ((c : Thread nD τ).loc main_arg14) :=
  (Kept.back_14 m ρ c main_arg14 (by decide)).trans ((Kept.at_1 m ρ c main_arg14 (by decide)).trans rfl)
theorem arg13_at17 : W17 m ρ c (Proc.devRef .tc main_arg13) = m ((c : Thread nD τ).loc main_arg13) :=
  (Kept.back_17 m ρ c main_arg13 (by decide)).trans ((Kept.at_1 m ρ c main_arg13 (by decide)).trans rfl)

theorem src_at6 : W6 m ρ c (Proc.devRef .tc main_v1) = src (m ((c : Thread nD τ).loc main_arg2)) :=
  (Kept.back_6 m ρ c main_v1 (by decide)).trans (src_1 m ρ c)
theorem dst_at6 : W6 m ρ c (Proc.devRef .tc main_v3) = dst (m ((c : Thread nD τ).loc main_arg2)) :=
  (Kept.back_6 m ρ c main_v3 (by decide)).trans (dst_1 m ρ c)
theorem src_at10 : W10 m ρ c (Proc.devRef .tc main_v1) = src (m ((c : Thread nD τ).loc main_arg2)) :=
  (Kept.back_10 m ρ c main_v1 (by decide)).trans (src_1 m ρ c)
theorem dst_at10 : W10 m ρ c (Proc.devRef .tc main_v3) = dst (m ((c : Thread nD τ).loc main_arg2)) :=
  (Kept.back_10 m ρ c main_v3 (by decide)).trans (dst_1 m ρ c)
theorem src_at14 : W14 m ρ c (Proc.devRef .tc main_v1) = src (m ((c : Thread nD τ).loc main_arg2)) :=
  (Kept.back_14 m ρ c main_v1 (by decide)).trans (src_1 m ρ c)
theorem dst_at14 : W14 m ρ c (Proc.devRef .tc main_v3) = dst (m ((c : Thread nD τ).loc main_arg2)) :=
  (Kept.back_14 m ρ c main_v3 (by decide)).trans (dst_1 m ρ c)

/-! ## The two input maps and their stacking -/

theorem users : W2 m ρ c (Proc.devRef .tc main_v5) = Product0.affine (m ((c : Thread nD τ).loc main_arg0)) (m ((c : Thread nD τ).loc main_arg3)) (row128 (m ((c : Thread nD τ).loc main_arg4))) := by
  refine (W2_arr m ρ c 3).trans ((Product0.array (V1 m ρ) c).trans ?_)
  show Product0.affine (W1 m ρ c (Proc.devRef .tc main_arg0)) (W1 m ρ c (Proc.devRef .tc main_arg3)) (W1 m ρ c (Proc.devRef .tc main_v4)) = _
  rw [arg0_at1, arg3_at1, bias_1]

theorem bias_3 : W3 m ρ c (Proc.devRef .tc main_v6) = row128 (m ((c : Thread nD τ).loc main_arg6)) := by
  refine Eq.trans ?_ (congrArg row128 (arg6_at2 m ρ c))
  show StableHlo.after hostOps1 (W2 m ρ c) (Proc.devRef .tc main_v6) = _
  generalize W2 m ρ c = V
  dsimp only [hostOps1]
  after_results
  rfl

theorem products : W4 m ρ c (Proc.devRef .tc main_v7) = Product1.affine (m ((c : Thread nD τ).loc main_arg1)) (m ((c : Thread nD τ).loc main_arg5)) (row128 (m ((c : Thread nD τ).loc main_arg6))) := by
  refine (W4_arr m ρ c 3).trans ((Product1.array (V3 m ρ) c).trans ?_)
  show Product1.affine (W3 m ρ c (Proc.devRef .tc main_arg1)) (W3 m ρ c (Proc.devRef .tc main_arg5)) (W3 m ρ c (Proc.devRef .tc main_v6)) = _
  rw [arg1_at3, arg5_at3, bias_3]

theorem users_4 : W4 m ρ c (Proc.devRef .tc main_v5) = Product0.affine (m ((c : Thread nD τ).loc main_arg0)) (m ((c : Thread nD τ).loc main_arg3)) (row128 (m ((c : Thread nD τ).loc main_arg4))) := by
  refine (W4_of_ne m ρ c main_v5 (by decide)).trans (Eq.trans ?_ (users m ρ c))
  show StableHlo.after hostOps1 (W2 m ρ c) (Proc.devRef .tc main_v5) = _
  generalize W2 m ρ c = V
  dsimp only [hostOps1]
  after_results

theorem nodes : W5 m ρ c (Proc.devRef .tc main_v8)
    = stacked (F := Ideal) (Product0.affine (m ((c : Thread nD τ).loc main_arg0)) (m ((c : Thread nD τ).loc main_arg3)) (row128 (m ((c : Thread nD τ).loc main_arg4)))) (Product1.affine (m ((c : Thread nD τ).loc main_arg1)) (m ((c : Thread nD τ).loc main_arg5)) (row128 (m ((c : Thread nD τ).loc main_arg6)))) := by
  refine Eq.trans ?_ (congr (congrArg (stacked (F := Ideal)) (users_4 m ρ c)) (products m ρ c))
  show StableHlo.after hostOps2 (W4 m ρ c) (Proc.devRef .tc main_v8) = _
  generalize W4 m ρ c = V
  dsimp only [hostOps2]
  after_results
  rfl

theorem zero_5 : W5 m ρ c (Proc.devRef .tc main_v10) = (zeroRow (F := Ideal)) := by
  show StableHlo.after hostOps2 (W4 m ρ c) (Proc.devRef .tc main_v10) = _
  generalize W4 m ρ c = V
  dsimp only [hostOps2]
  after_results
  rfl

/-! ## Layer 1 -/

theorem lin1 : W6 m ρ c (Proc.devRef .tc main_v11)
    = Product2.affine (stacked (F := Ideal) (Product0.affine (m ((c : Thread nD τ).loc main_arg0)) (m ((c : Thread nD τ).loc main_arg3)) (row128 (m ((c : Thread nD τ).loc main_arg4)))) (Product1.affine (m ((c : Thread nD τ).loc main_arg1)) (m ((c : Thread nD τ).loc main_arg5)) (row128 (m ((c : Thread nD τ).loc main_arg6))))) (m ((c : Thread nD τ).loc main_arg7)) (zeroRow (F := Ideal)) := by
  refine (W6_arr m ρ c 3).trans ((Product2.array (V5 m ρ) c).trans ?_)
  show Product2.affine (W5 m ρ c (Proc.devRef .tc main_v8)) (W5 m ρ c (Proc.devRef .tc main_arg7)) (W5 m ρ c (Proc.devRef .tc main_v10)) = _
  rw [nodes, arg7_at5, zero_5]

theorem conv1 : W9 m ρ c (Proc.devRef .tc main_v53)
    = Cert.ReferenceIdeal.Stage.round (F := Ideal) (Product2.affine (stacked (F := Ideal) (Product0.affine (m ((c : Thread nD τ).loc main_arg0)) (m ((c : Thread nD τ).loc main_arg3)) (row128 (m ((c : Thread nD τ).loc main_arg4)))) (Product1.affine (m ((c : Thread nD τ).loc main_arg1)) (m ((c : Thread nD τ).loc main_arg5)) (row128 (m ((c : Thread nD τ).loc main_arg6))))) (m ((c : Thread nD τ).loc main_arg7)) (zeroRow (F := Ideal)))
        (src (m ((c : Thread nD τ).loc main_arg2))) (dst (m ((c : Thread nD τ).loc main_arg2))) (m ((c : Thread nD τ).loc main_arg8)) := by
  rw [Round1.rows, lin1, src_at6, dst_at6, arg8_at6]

theorem zero_9 : W9 m ρ c (Proc.devRef .tc main_v55) = (zeroRow (F := Ideal)) := by
  show StableHlo.after hostOps3_2 (StableHlo.after hostOps3_1 (StableHlo.after hostOps3 (W6 m ρ c))) (Proc.devRef .tc main_v55) = _
  generalize W6 m ρ c = V
  dsimp only [hostOps3_2, hostOps3_1, hostOps3]
  after_results_simp
  rfl

/-! ## Layer 2 -/

theorem lin2 : W10 m ρ c (Proc.devRef .tc main_v56)
    = Product3.affine (W9 m ρ c (Proc.devRef .tc main_v53)) (m ((c : Thread nD τ).loc main_arg9)) (zeroRow (F := Ideal)) := by
  refine (W10_arr m ρ c 3).trans ((Product3.array (V9 m ρ) c).trans ?_)
  show Product3.affine (W9 m ρ c (Proc.devRef .tc main_v53)) (W9 m ρ c (Proc.devRef .tc main_arg9)) (W9 m ρ c (Proc.devRef .tc main_v55)) = _
  rw [arg9_at9, zero_9]

theorem conv2 : W13 m ρ c (Proc.devRef .tc main_v98)
    = Cert.ReferenceIdeal.Stage.round (F := Ideal) (Product3.affine (W9 m ρ c (Proc.devRef .tc main_v53)) (m ((c : Thread nD τ).loc main_arg9)) (zeroRow (F := Ideal)))
        (src (m ((c : Thread nD τ).loc main_arg2))) (dst (m ((c : Thread nD τ).loc main_arg2))) (m ((c : Thread nD τ).loc main_arg10)) := by
  rw [Round2.rows, lin2, src_at10, dst_at10, arg10_at10]

theorem zero_13 : W13 m ρ c (Proc.devRef .tc main_v100) = (zeroRow (F := Ideal)) := by
  show StableHlo.after hostOps4_2 (StableHlo.after hostOps4_1 (StableHlo.after hostOps4 (W10 m ρ c))) (Proc.devRef .tc main_v100) = _
  generalize W10 m ρ c = V
  dsimp only [hostOps4_2, hostOps4_1, hostOps4]
  after_results_simp
  rfl

/-! ## Layer 3 -/

theorem lin3 : W14 m ρ c (Proc.devRef .tc main_v101)
    = Product4.affine (W13 m ρ c (Proc.devRef .tc main_v98)) (m ((c : Thread nD τ).loc main_arg11)) (zeroRow (F := Ideal)) := by
  refine (W14_arr m ρ c 3).trans ((Product4.array (V13 m ρ) c).trans ?_)
  show Product4.affine (W13 m ρ c (Proc.devRef .tc main_v98)) (W13 m ρ c (Proc.devRef .tc main_arg11)) (W13 m ρ c (Proc.devRef .tc main_v100)) = _
  rw [arg11_at13, zero_13]

theorem conv3 : W17 m ρ c (Proc.devRef .tc main_v143)
    = Cert.ReferenceIdeal.Stage.round (F := Ideal) (Product4.affine (W13 m ρ c (Proc.devRef .tc main_v98)) (m ((c : Thread nD τ).loc main_arg11)) (zeroRow (F := Ideal)))
        (src (m ((c : Thread nD τ).loc main_arg2))) (dst (m ((c : Thread nD τ).loc main_arg2))) (m ((c : Thread nD τ).loc main_arg12)) := by
  rw [Round3.rows, lin3, src_at14, dst_at14, arg12_at14]

theorem bias_17 : W17 m ρ c (Proc.devRef .tc main_v144) = row16 (m ((c : Thread nD τ).loc main_arg14)) := by
  refine Eq.trans ?_ (congrArg row16 (arg14_at14 m ρ c))
  show StableHlo.after hostOps5_2 (StableHlo.after hostOps5_1 (StableHlo.after hostOps5 (W14 m ρ c))) (Proc.devRef .tc main_v144) = _
  generalize W14 m ρ c = V
  dsimp only [hostOps5_2, hostOps5_1, hostOps5]
  after_results_simp
  rfl

/-! ## The head, and the whole -/

theorem result : W18 m ρ c (Proc.devRef .tc main_v145)
    = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W18_arr m ρ c 3).trans ((Product5.array (V17 m ρ) c).trans ?_)
  show Product5.affine (W17 m ρ c (Proc.devRef .tc main_v143)) (W17 m ρ c (Proc.devRef .tc main_arg13)) (W17 m ρ c (Proc.devRef .tc main_v144)) = _
  rw [conv3, conv2, conv1, arg13_at17, bias_17]
  rfl

end Cert.KernelIdeal.Whole
end
-- ==== Proof.RefValue.lean ====
/-
  What the idealized reference computes: its result array is `Network.whole` of the fifteen argument arrays.

  The reference is one straight line of host operations.  Each of its matrix products, read at an entry, is the sum over
  the contracted coordinate; with the bias spread over the rows (or none), and after the clamp at zero where there is one,
  that is the `affine` of the corresponding tiled product.  Its three rounds of neighbourhood averaging are `Stage.round`
  word for word.  Adding a zero bias changes nothing on the extended reals: x + 0 = x also at the infinities.
-/
import proofs.«152641_j25168508355091_1_alg».proof.Proof.RefRead
import proofs.«152641_j25168508355091_1_alg».proof.Proof.Network

set_option maxRecDepth 16384

noncomputable section
namespace Cert.ReferenceIdeal.Bridge
open Cert.ReferenceIdeal Cert.ReferenceIdeal.Gen Cert.ReferenceIdeal.ReadP
open Idealize.ShloMosaic Idealize.ShloMosaic.TcCoe Idealize.SL.Sem Idealize.ShloMosaic.ValueIdx

/-- The reference's users map — a matrix product plus the bias spread over the rows — is `affine` with the bias as a row. -/
theorem users (a0 : (⟨S50000x64, .f32⟩ : BufTy).Contents (Elt Ideal)) (a3 : (⟨S64x128, .f32⟩ : BufTy).Contents (Elt Ideal)) (a4 : (⟨S128, .f32⟩ : BufTy).Contents (Elt Ideal)) :
    val_main_v7 (F := Ideal) a0 a3 a4 = Cert.KernelIdeal.Product0.affine a0 a3 (Cert.KernelIdeal.Network.row128 a4) := by
  funext i
  obtain ⟨p, q, rfl⟩ : ∃ (p : Fin 50000) (q : Fin 128), i = ix2 p q := ⟨i 0, i 1, eq_ix2 i⟩
  refine Eq.trans ?_ (show (∑ k : Fin 64, a0 (ix2 p k) * a3 (ix2 k q)) + Cert.KernelIdeal.Network.row128 a4 (ix2 0 q)
    = Cert.KernelIdeal.Product0.affine a0 a3 (Cert.KernelIdeal.Network.row128 a4) (ix2 p q) from rfl)
  have hl : ∀ k : Fin 64, lidx_main_v4 (ix2 p q) k = ix2 p k := fun k => funext fun a => Fin.ext (by
    match a with
    | ⟨0, _⟩ => rfl
    | ⟨1, _⟩ => rfl)
  have hr : ∀ k : Fin 64, ridx_main_v4 (ix2 p q) k = ix2 k q := fun k => funext fun a => Fin.ext (by
    match a with
    | ⟨0, _⟩ => rfl
    | ⟨1, _⟩ => rfl)
  have hb : idx_main_v5 (idx_main_v6 (ix2 p q)) = ix1 q := funext fun a => Fin.ext (by
    match a with
    | ⟨0, _⟩ => rfl)
  rw [Cert.KernelIdeal.Network.row128_apply, val_main_v7_apply, val_main_v4_apply, val_main_v6_apply, val_main_v5_apply]
  simp only [hl, hr, hb]
  rfl

/-- The reference's products map — a matrix product plus the bias spread over the rows — is `affine` with the bias as a row. -/
theorem products (a1 : (⟨S50000x100, .f32⟩ : BufTy).Contents (Elt Ideal)) (a5 : (⟨S100x128, .f32⟩ : BufTy).Contents (Elt Ideal)) (a6 : (⟨S128, .f32⟩ : BufTy).Contents (Elt Ideal)) :
    val_main_v11 (F := Ideal) a1 a5 a6 = Cert.KernelIdeal.Product1.affine a1 a5 (Cert.KernelIdeal.Network.row128 a6) := by
  funext i
  obtain ⟨p, q, rfl⟩ : ∃ (p : Fin 50000) (q : Fin 128), i = ix2 p q := ⟨i 0, i 1, eq_ix2 i⟩
  refine Eq.trans ?_ (show (∑ k : Fin 100, a1 (ix2 p k) * a5 (ix2 k q)) + Cert.KernelIdeal.Network.row128 a6 (ix2 0 q)
    = Cert.KernelIdeal.Product1.affine a1 a5 (Cert.KernelIdeal.Network.row128 a6) (ix2 p q) from rfl)
  have hl : ∀ k : Fin 100, lidx_main_v8 (ix2 p q) k = ix2 p k := fun k => funext fun a => Fin.ext (by
    match a with
    | ⟨0, _⟩ => rfl
    | ⟨1, _⟩ => rfl)
  have hr : ∀ k : Fin 100, ridx_main_v8 (ix2 p q) k = ix2 k q := fun k => funext fun a => Fin.ext (by
    match a with
    | ⟨0, _⟩ => rfl
    | ⟨1, _⟩ => rfl)
  have hb : idx_main_v9 (idx_main_v10 (ix2 p q)) = ix1 q := funext fun a => Fin.ext (by
    match a with
    | ⟨0, _⟩ => rfl)
  rw [Cert.KernelIdeal.Network.row128_apply, val_main_v11_apply, val_main_v8_apply, val_main_v10_apply, val_main_v9_apply]
  simp only [hl, hr, hb]
  rfl

/-- The two blocks stacked. -/
theorem nodes (a0 : (⟨S50000x64, .f32⟩ : BufTy).Contents (Elt Ideal)) (a1 : (⟨S50000x100, .f32⟩ : BufTy).Contents (Elt Ideal)) (a3 : (⟨S64x128, .f32⟩ : BufTy).Contents (Elt Ideal)) (a4 : (⟨S128, .f32⟩ : BufTy).Contents (Elt Ideal)) (a5 : (⟨S100x128, .f32⟩ : BufTy).Contents (Elt Ideal)) (a6 : (⟨S128, .f32⟩ : BufTy).Contents (Elt Ideal)) :
    val_main_v12 (F := Ideal) a0 a1 a3 a4 a5 a6
      = Cert.KernelIdeal.Network.stacked (F := Ideal) (Cert.KernelIdeal.Product0.affine a0 a3 (Cert.KernelIdeal.Network.row128 a4)) (Cert.KernelIdeal.Product1.affine a1 a5 (Cert.KernelIdeal.Network.row128 a6)) := by
  unfold val_main_v12
  rw [users, products]
  rfl

/-- The first layer's matrix product has no bias and no clamp: `affine` with the row of zeros. -/
theorem lin1 (a0 : (⟨S50000x64, .f32⟩ : BufTy).Contents (Elt Ideal)) (a1 : (⟨S50000x100, .f32⟩ : BufTy).Contents (Elt Ideal)) (a3 : (⟨S64x128, .f32⟩ : BufTy).Contents (Elt Ideal)) (a4 : (⟨S128, .f32⟩ : BufTy).Contents (Elt Ideal)) (a5 : (⟨S100x128, .f32⟩ : BufTy).Contents (Elt Ideal)) (a6 : (⟨S128, .f32⟩ : BufTy).Contents (Elt Ideal)) (a7 : (⟨S128x128, .f32⟩ : BufTy).Contents (Elt Ideal)) :
    val_main_v13 (F := Ideal) a0 a1 a3 a4 a5 a6 a7 = Cert.KernelIdeal.Product2.affine (val_main_v12 (F := Ideal) a0 a1 a3 a4 a5 a6) a7 (Cert.KernelIdeal.Network.zeroRow (F := Ideal)) := by
  funext i
  obtain ⟨p, q, rfl⟩ : ∃ (p : Fin 100000) (q : Fin 128), i = ix2 p q := ⟨i 0, i 1, eq_ix2 i⟩
  refine Eq.trans ?_ (show (∑ k : Fin 128, val_main_v12 (F := Ideal) a0 a1 a3 a4 a5 a6 (ix2 p k) * a7 (ix2 k q)) + Cert.KernelIdeal.Network.zeroRow (F := Ideal) (ix2 0 q)
    = Cert.KernelIdeal.Product2.affine (val_main_v12 (F := Ideal) a0 a1 a3 a4 a5 a6) a7 (Cert.KernelIdeal.Network.zeroRow (F := Ideal)) (ix2 p q) from rfl)
  have hl : ∀ k : Fin 128, lidx_main_v13 (ix2 p q) k = ix2 p k := fun k => funext fun a => Fin.ext (by
    match a with
    | ⟨0, _⟩ => rfl
    | ⟨1, _⟩ => rfl)
  have hr : ∀ k : Fin 128, ridx_main_v13 (ix2 p q) k = ix2 k q := fun k => funext fun a => Fin.ext (by
    match a with
    | ⟨0, _⟩ => rfl
    | ⟨1, _⟩ => rfl)
  rw [Cert.KernelIdeal.Network.zeroRow_apply, add_zero, val_main_v13_apply]
  simp only [hl, hr]

/-- The reference's first round of averaging is `Stage.round`. -/
theorem conv1 (a0 : (⟨S50000x64, .f32⟩ : BufTy).Contents (Elt Ideal)) (a1 : (⟨S50000x100, .f32⟩ : BufTy).Contents (Elt Ideal)) (a2 : (⟨S2x600000, .i32⟩ : BufTy).Contents (Elt Ideal)) (a3 : (⟨S64x128, .f32⟩ : BufTy).Contents (Elt Ideal)) (a4 : (⟨S128, .f32⟩ : BufTy).Contents (Elt Ideal)) (a5 : (⟨S100x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) :
    val_main_v55 (F := Ideal) a0 a1 a2 a3 a4 a5 a6 a7 a8
      = Stage.round (F := Ideal) (val_main_v13 (F := Ideal) a0 a1 a3 a4 a5 a6 a7) (Cert.KernelIdeal.Network.src a2) (Cert.KernelIdeal.Network.dst a2) a8 := rfl

/-- The reference's clamp at zero followed by a matrix product is `affine` with the row of zeros as bias. -/
theorem lin2 (a0 : (⟨S50000x64, .f32⟩ : BufTy).Contents (Elt Ideal)) (a1 : (⟨S50000x100, .f32⟩ : BufTy).Contents (Elt Ideal)) (a2 : (⟨S2x600000, .i32⟩ : BufTy).Contents (Elt Ideal)) (a3 : (⟨S64x128, .f32⟩ : BufTy).Contents (Elt Ideal)) (a4 : (⟨S128, .f32⟩ : BufTy).Contents (Elt Ideal)) (a5 : (⟨S100x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) :
    val_main_v57 (F := Ideal) a0 a1 a2 a3 a4 a5 a6 a7 a8 a9 = Cert.KernelIdeal.Product3.affine (val_main_v55 (F := Ideal) a0 a1 a2 a3 a4 a5 a6 a7 a8) a9 (Cert.KernelIdeal.Network.zeroRow (F := Ideal)) := by
  funext i
  obtain ⟨p, q, rfl⟩ : ∃ (p : Fin 100000) (q : Fin 128), i = ix2 p q := ⟨i 0, i 1, eq_ix2 i⟩
  refine Eq.trans ?_ (show (∑ k : Fin 128, max (val_main_v55 (F := Ideal) a0 a1 a2 a3 a4 a5 a6 a7 a8 (ix2 p k)) (Ideal.ofBits .f32 0x00000000#32) * a9 (ix2 k q)) + Cert.KernelIdeal.Network.zeroRow (F := Ideal) (ix2 0 q)
    = Cert.KernelIdeal.Product3.affine (val_main_v55 (F := Ideal) a0 a1 a2 a3 a4 a5 a6 a7 a8) a9 (Cert.KernelIdeal.Network.zeroRow (F := Ideal)) (ix2 p q) from rfl)
  have hl : ∀ k : Fin 128, lidx_main_v57 (ix2 p q) k = ix2 p k := fun k => funext fun a => Fin.ext (by
    match a with
    | ⟨0, _⟩ => rfl
    | ⟨1, _⟩ => rfl)
  have hr : ∀ k : Fin 128, ridx_main_v57 (ix2 p q) k = ix2 k q := fun k => funext fun a => Fin.ext (by
    match a with
    | ⟨0, _⟩ => rfl
    | ⟨1, _⟩ => rfl)
  rw [Cert.KernelIdeal.Network.zeroRow_apply, add_zero, val_main_v57_apply]
  refine Finset.sum_congr rfl fun k _ => ?_
  rw [hl k, hr k, val_main_v56_apply]
  rfl

theorem conv2 (a0 : (⟨S50000x64, .f32⟩ : BufTy).Contents (Elt Ideal)) (a1 : (⟨S50000x100, .f32⟩ : BufTy).Contents (Elt Ideal)) (a2 : (⟨S2x600000, .i32⟩ : BufTy).Contents (Elt Ideal)) (a3 : (⟨S64x128, .f32⟩ : BufTy).Contents (Elt Ideal)) (a4 : (⟨S128, .f32⟩ : BufTy).Contents (Elt Ideal)) (a5 : (⟨S100x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) (a10 : (⟨S128, .f32⟩ : BufTy).Contents (Elt Ideal)) :
    val_main_v99 (F := Ideal) a0 a1 a2 a3 a4 a5 a6 a7 a8 a9 a10
      = Stage.round (F := Ideal) (val_main_v57 (F := Ideal) a0 a1 a2 a3 a4 a5 a6 a7 a8 a9) (Cert.KernelIdeal.Network.src a2) (Cert.KernelIdeal.Network.dst a2) a10 := rfl

/-- The reference's clamp at zero followed by a matrix product is `affine` with the row of zeros as bias. -/
theorem lin3 (a0 : (⟨S50000x64, .f32⟩ : BufTy).Contents (Elt Ideal)) (a1 : (⟨S50000x100, .f32⟩ : BufTy).Contents (Elt Ideal)) (a2 : (⟨S2x600000, .i32⟩ : BufTy).Contents (Elt Ideal)) (a3 : (⟨S64x128, .f32⟩ : BufTy).Contents (Elt Ideal)) (a4 : (⟨S128, .f32⟩ : BufTy).Contents (Elt Ideal)) (a5 : (⟨S100x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) (a10 : (⟨S128, .f32⟩ : BufTy).Contents (Elt Ideal)) (a11 : (⟨S128x128, .f32⟩ : BufTy).Contents (Elt Ideal)) :
    val_main_v101 (F := Ideal) a0 a1 a2 a3 a4 a5 a6 a7 a8 a9 a10 a11 = Cert.KernelIdeal.Product4.affine (val_main_v99 (F := Ideal) a0 a1 a2 a3 a4 a5 a6 a7 a8 a9 a10) a11 (Cert.KernelIdeal.Network.zeroRow (F := Ideal)) := by
  funext i
  obtain ⟨p, q, rfl⟩ : ∃ (p : Fin 100000) (q : Fin 128), i = ix2 p q := ⟨i 0, i 1, eq_ix2 i⟩
  refine Eq.trans ?_ (show (∑ k : Fin 128, max (val_main_v99 (F := Ideal) a0 a1 a2 a3 a4 a5 a6 a7 a8 a9 a10 (ix2 p k)) (Ideal.ofBits .f32 0x00000000#32) * a11 (ix2 k q)) + Cert.KernelIdeal.Network.zeroRow (F := Ideal) (ix2 0 q)
    = Cert.KernelIdeal.Product4.affine (val_main_v99 (F := Ideal) a0 a1 a2 a3 a4 a5 a6 a7 a8 a9 a10) a11 (Cert.KernelIdeal.Network.zeroRow (F := Ideal)) (ix2 p q) from rfl)
  have hl : ∀ k : Fin 128, lidx_main_v101 (ix2 p q) k = ix2 p k := fun k => funext fun a => Fin.ext (by
    match a with
    | ⟨0, _⟩ => rfl
    | ⟨1, _⟩ => rfl)
  have hr : ∀ k : Fin 128, ridx_main_v101 (ix2 p q) k = ix2 k q := fun k => funext fun a => Fin.ext (by
    match a with
    | ⟨0, _⟩ => rfl
    | ⟨1, _⟩ => rfl)
  rw [Cert.KernelIdeal.Network.zeroRow_apply, add_zero, val_main_v101_apply]
  refine Finset.sum_congr rfl fun k _ => ?_
  rw [hl k, hr k, val_main_v100_apply]
  rfl

theorem conv3 (a0 : (⟨S50000x64, .f32⟩ : BufTy).Contents (Elt Ideal)) (a1 : (⟨S50000x100, .f32⟩ : BufTy).Contents (Elt Ideal)) (a2 : (⟨S2x600000, .i32⟩ : BufTy).Contents (Elt Ideal)) (a3 : (⟨S64x128, .f32⟩ : BufTy).Contents (Elt Ideal)) (a4 : (⟨S128, .f32⟩ : BufTy).Contents (Elt Ideal)) (a5 : (⟨S100x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) (a10 : (⟨S128, .f32⟩ : BufTy).Contents (Elt Ideal)) (a11 : (⟨S128x128, .f32⟩ : BufTy).Contents (Elt Ideal)) (a12 : (⟨S128, .f32⟩ : BufTy).Contents (Elt Ideal)) :
    val_main_v143 (F := Ideal) a0 a1 a2 a3 a4 a5 a6 a7 a8 a9 a10 a11 a12
      = Stage.round (F := Ideal) (val_main_v101 (F := Ideal) a0 a1 a2 a3 a4 a5 a6 a7 a8 a9 a10 a11) (Cert.KernelIdeal.Network.src a2) (Cert.KernelIdeal.Network.dst a2) a12 := rfl

/-- The head: clamp, product with the 128 × 16 matrix, bias. -/
theorem head (a0 : (⟨S50000x64, .f32⟩ : BufTy).Contents (Elt Ideal)) (a1 : (⟨S50000x100, .f32⟩ : BufTy).Contents (Elt Ideal)) (a2 : (⟨S2x600000, .i32⟩ : BufTy).Contents (Elt Ideal)) (a3 : (⟨S64x128, .f32⟩ : BufTy).Contents (Elt Ideal)) (a4 : (⟨S128, .f32⟩ : BufTy).Contents (Elt Ideal)) (a5 : (⟨S100x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) (a10 : (⟨S128, .f32⟩ : BufTy).Contents (Elt Ideal)) (a11 : (⟨S128x128, .f32⟩ : BufTy).Contents (Elt Ideal)) (a12 : (⟨S128, .f32⟩ : BufTy).Contents (Elt Ideal)) (a13 : (⟨S128x16, .f32⟩ : BufTy).Contents (Elt Ideal)) (a14 : (⟨S16, .f32⟩ : BufTy).Contents (Elt Ideal)) :
    val_main_v148 (F := Ideal) a0 a1 a2 a3 a4 a5 a6 a7 a8 a9 a10 a11 a12 a13 a14 = Cert.KernelIdeal.Product5.affine (val_main_v143 (F := Ideal) a0 a1 a2 a3 a4 a5 a6 a7 a8 a9 a10 a11 a12) a13 (Cert.KernelIdeal.Network.row16 a14) := by
  funext i
  obtain ⟨p, q, rfl⟩ : ∃ (p : Fin 100000) (q : Fin 16), i = ix2 p q := ⟨i 0, i 1, eq_ix2 i⟩
  refine Eq.trans ?_ (show (∑ k : Fin 128, max (val_main_v143 (F := Ideal) a0 a1 a2 a3 a4 a5 a6 a7 a8 a9 a10 a11 a12 (ix2 p k)) (Ideal.ofBits .f32 0x00000000#32) * a13 (ix2 k q)) + Cert.KernelIdeal.Network.row16 a14 (ix2 0 q)
    = Cert.KernelIdeal.Product5.affine (val_main_v143 (F := Ideal) a0 a1 a2 a3 a4 a5 a6 a7 a8 a9 a10 a11 a12) a13 (Cert.KernelIdeal.Network.row16 a14) (ix2 p q) from rfl)
  have hl : ∀ k : Fin 128, lidx_main_v145 (ix2 p q) k = ix2 p k := fun k => funext fun a => Fin.ext (by
    match a with
    | ⟨0, _⟩ => rfl
    | ⟨1, _⟩ => rfl)
  have hr : ∀ k : Fin 128, ridx_main_v145 (ix2 p q) k = ix2 k q := fun k => funext fun a => Fin.ext (by
    match a with
    | ⟨0, _⟩ => rfl
    | ⟨1, _⟩ => rfl)
  have hb : idx_main_v146 (idx_main_v147 (ix2 p q)) = ix1 q := funext fun a => Fin.ext (by
    match a with
    | ⟨0, _⟩ => rfl)
  rw [Cert.KernelIdeal.Network.row16_apply, val_main_v148_apply, val_main_v145_apply, val_main_v147_apply, val_main_v146_apply, hb]
  refine congrArg (· + a14 (ix1 q)) (Finset.sum_congr rfl fun k _ => ?_)
  rw [hl k, hr k, val_main_v144_apply]
  rfl

/-- The reference's result is the network's function of the arguments. -/
theorem result (a0 : (⟨S50000x64, .f32⟩ : BufTy).Contents (Elt Ideal)) (a1 : (⟨S50000x100, .f32⟩ : BufTy).Contents (Elt Ideal)) (a2 : (⟨S2x600000, .i32⟩ : BufTy).Contents (Elt Ideal)) (a3 : (⟨S64x128, .f32⟩ : BufTy).Contents (Elt Ideal)) (a4 : (⟨S128, .f32⟩ : BufTy).Contents (Elt Ideal)) (a5 : (⟨S100x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) (a10 : (⟨S128, .f32⟩ : BufTy).Contents (Elt Ideal)) (a11 : (⟨S128x128, .f32⟩ : BufTy).Contents (Elt Ideal)) (a12 : (⟨S128, .f32⟩ : BufTy).Contents (Elt Ideal)) (a13 : (⟨S128x16, .f32⟩ : BufTy).Contents (Elt Ideal)) (a14 : (⟨S16, .f32⟩ : BufTy).Contents (Elt Ideal)) :
    val_main_v148 (F := Ideal) a0 a1 a2 a3 a4 a5 a6 a7 a8 a9 a10 a11 a12 a13 a14 = Cert.KernelIdeal.Network.whole a0 a1 a2 a3 a4 a5 a6 a7 a8 a9 a10 a11 a12 a13 a14 := by
  rw [head, conv3, lin3, conv2, lin2, conv1, lin1, nodes]
  rfl

end Cert.ReferenceIdeal.Bridge
end
-- ==== Proof.lean ====
/-
  The idealized kernel and the idealized reference compute the same 100000 × 16 array from the same fifteen arguments.

  Both are the graph network of `Network.whole`: two affine input maps stacked into 100000 node rows, three layers
  "multiply by a 128 × 128 matrix, then average over neighbours with inverse-square-root-degree weights, then add the
  layer's bias", a clamp at zero before the second and third layers and before the head, and an affine head to 16 outputs.
  The kernel performs every matrix product as a tiled product over row blocks of 10000 rows, narrowing the operands to half
  precision first (the identity over the extended reals), with the clamp fused into the product that follows it and a bias row of
  zeros where the reference adds none; the reference performs each as one whole matrix product.  An entry of either is the
  same finite sum over the contracted coordinate, and x + 0 = x holds for every extended real, so no use is made of the
  inputs being finite.  The averaging rounds are the same host operations in both programs.
  The kernel's own idealization rewrote no operation, so `preserves` holds trivially; the three frames are the programs'
  runs with the results forgotten.
-/
import proofs.«152641_j25168508355091_1_alg».proof.Defs
import proofs.«152641_j25168508355091_1_alg».proof.Proof.Gen.Kernel
import proofs.«152641_j25168508355091_1_alg».proof.Proof.Gen.Kernel.Frame
import proofs.«152641_j25168508355091_1_alg».proof.Proof.Gen.KernelIdeal
import proofs.«152641_j25168508355091_1_alg».proof.Proof.Gen.KernelIdeal.Frame
import proofs.«152641_j25168508355091_1_alg».proof.Proof.Gen.ReferenceIdeal
import proofs.«152641_j25168508355091_1_alg».proof.Proof.Gen.Pre_finite_inputs
import proofs.«152641_j25168508355091_1_alg».proof.Proof.RefRun
import proofs.«152641_j25168508355091_1_alg».proof.Proof.RefRead
import proofs.«152641_j25168508355091_1_alg».proof.Proof.KernelValue
import proofs.«152641_j25168508355091_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result array at `Network.whole` of the (agreeing) arguments. -/
theorem algebraic : Cert.algebraic_KernelIdeal_ReferenceIdeal := by
  intro m ρ m' ρ' _ hagree
  refine ⟨fun c => Cert.KernelIdeal.Network.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Whole.result m ρ c), (h c).2⟩) (Cert.KernelIdeal.Whole.run_result m ρ)
  · refine (θ_run Cert.ReferenceIdeal.defs _ _).mono (fun r h c => ⟨?_, (h c).2⟩) (Cert.ReferenceIdeal.ValueP.run (F := Ideal) m' ρ')
    refine (h c).1.trans ((Cert.ReferenceIdeal.ReadP.val_main_v148_eq m' c).trans ((Cert.ReferenceIdeal.Bridge.result _ _ _ _ _ _ _ _ _ _ _ _ _ _ _).trans ?_))
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
